-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S128x1 .f32) (main_arg9 : FVec F S1 .f32) (main_v33 : IVec S_ 1) : IVec S_ 1 :=
  let main_v34 : FVec F S128x1 .f32 := Host.absf main_arg8
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S128x128 .f32) (main_arg6 : FVec F S128 .f32) (main_arg7 : FVec F S128x128 .f32) (main_arg8 : FVec F S128x1 .f32) (main_arg9 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x1 .f32) (main_arg9 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S1x128 : Shape := ⟨2, ![1, 128]⟩
abbrev S5000x128 : Shape := ⟨2, ![5000, 128]⟩
abbrev S5000x1 : Shape := ⟨2, ![5000, 1]⟩
abbrev S1x1 : Shape := ⟨2, ![1, 1]⟩

abbrev nBuf : Space → Nat
  | .hbm => 64
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x1, .f32⟩
  | .hbm, ⟨9, _⟩ => ⟨S1, .f32⟩
  | .hbm, ⟨10, _⟩ => ⟨S1x600000, .i32⟩
  | .hbm, ⟨11, _⟩ => ⟨S600000, .i32⟩
  | .hbm, ⟨12, _⟩ => ⟨S1x600000, .i32⟩
  | .hbm, ⟨13, _⟩ => ⟨S600000, .i32⟩
  | .hbm, ⟨14, _⟩ => ⟨S_, .f32⟩
  | .hbm, ⟨15, _⟩ => ⟨S600000, .f32⟩
  | .hbm, ⟨16, _⟩ => ⟨S_, .f32⟩
  | .hbm, ⟨17, _⟩ => ⟨S50000, .f32⟩
  | .hbm, ⟨18, _⟩ => ⟨S600000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S128x128, .bf16⟩
  | .hbm, ⟨28, _⟩ => ⟨S128x128, .bf16⟩
  | .hbm, ⟨29, _⟩ => ⟨S128x128, .bf16⟩
  | .hbm, ⟨30, _⟩ => ⟨S128x128, .bf16⟩
  | .hbm, ⟨31, _⟩ => ⟨S128x1, .bf16⟩
  | .hbm, ⟨32, _⟩ => ⟨S_, .i32⟩
  | .hbm, ⟨33, _⟩ => ⟨S600000, .i32⟩
  | .hbm, ⟨34, _⟩ => ⟨S600000, .i1⟩
  | .hbm, ⟨35, _⟩ => ⟨S_, .i32⟩
  | .hbm, ⟨36, _⟩ => ⟨S600000, .i32⟩
  | .hbm, ⟨37, _⟩ => ⟨S600000, .i32⟩
  | .hbm, ⟨38, _⟩ => ⟨S600000, .i32⟩
  | .hbm, ⟨39, _⟩ => ⟨S600000x1, .i32⟩
  | .hbm, ⟨40, _⟩ => ⟨S600000x128, .f32⟩
  | .hbm, ⟨41, _⟩ => ⟨S_, .f32⟩
  | .hbm, ⟨42, _⟩ => ⟨S50000x128, .f32⟩
  | .hbm, ⟨43, _⟩ => ⟨S600000x1, .i32⟩
  | .hbm, ⟨44, _⟩ => ⟨S50000x128, .f32⟩
  | .hbm, ⟨45, _⟩ => ⟨S1x128, .f32⟩
  | .hbm, ⟨46, _⟩ => ⟨S50000x128, .f32⟩
  | .hbm, ⟨47, _⟩ => ⟨S_, .i32⟩
  | .hbm, ⟨48, _⟩ => ⟨S600000, .i32⟩
  | .hbm, ⟨49, _⟩ => ⟨S600000, .i1⟩
  | .hbm, ⟨50, _⟩ => ⟨S_, .i32⟩
  | .hbm, ⟨51, _⟩ => ⟨S600000, .i32⟩
  | .hbm, ⟨52, _⟩ => ⟨S600000, .i32⟩
  | .hbm, ⟨53, _⟩ => ⟨S600000, .i32⟩
  | .hbm, ⟨54, _⟩ => ⟨S600000x1, .i32⟩
  | .hbm, ⟨55, _⟩ => ⟨S600000x128, .f32⟩
  | .hbm, ⟨56, _⟩ => ⟨S_, .f32⟩
  | .hbm, ⟨57, _⟩ => ⟨S50000x128, .f32⟩
  | .hbm, ⟨58, _⟩ => ⟨S600000x1, .i32⟩
  | .hbm, ⟨59, _⟩ => ⟨S50000x128, .f32⟩
  | .hbm, ⟨60, _⟩ => ⟨S1x128, .f32⟩
  | .hbm, ⟨61, _⟩ => ⟨S1x1, .f32⟩
  | .hbm, ⟨62, _⟩ => ⟨S50000x1, .f32⟩
  | .hbm, ⟨63, _⟩ => ⟨S50000, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .bf16⟩
  | .local _ .vmem, ⟨5, _⟩ => ⟨S1x128, .f32⟩
  | .local _ .vmem, ⟨6, _⟩ => ⟨S128x128, .bf16⟩
  | .local _ .vmem, ⟨7, _⟩ => ⟨S5000x1, .f32⟩
  | .local _ .vmem, ⟨8, _⟩ => ⟨S5000x1, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S128x128, .bf16⟩
  | .local _ .vmem, ⟨16, _⟩ => ⟨S1x128, .f32⟩
  | .local _ .vmem, ⟨17, _⟩ => ⟨S128x128, .bf16⟩
  | .local _ .vmem, ⟨18, _⟩ => ⟨S5000x1, .f32⟩
  | .local _ .vmem, ⟨19, _⟩ => ⟨S5000x1, .f32⟩
  | .local _ .vmem, ⟨20, _⟩ => ⟨S128x1, .bf16⟩
  | .local _ .vmem, ⟨21, _⟩ => ⟨S1x1, .f32⟩
  | .local _ .vmem, ⟨22, _⟩ => ⟨S5000x1, .f32⟩
  | .local _ .vmem, ⟨23, _⟩ => ⟨S5000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc1_sem6_0 : DmaSem sig := 20
abbrev cc1_sem7_0 : DmaSem sig := 21
abbrev cc1_sem8_0 : DmaSem sig := 22
abbrev cc1_sem8_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S128x1 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  shapeCasts_S50000_S50000x1 : S50000.ShapeCasts S50000x1
  bitsLt_bf16_f32 : FTy.bits .bf16 < FTy.bits .f32
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S1_S1x1 : S1.ShapeCasts S1x1
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  shapeCasts_S50000x1_S50000 : S50000x1.ShapeCasts S50000
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x1.size a ≤ S50000x1.size a
  hwx0_5 : ∀ i : grid0.Coords, EltTy.bits .f32 = 32 ∨ (Rect.block (s := S50000x1) S5000x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x1.size a ≤ S50000x1.size a
  hwx1_5 : ∀ i : grid1.Coords, EltTy.bits .f32 = 32 ∨ (Rect.block (s := S50000x1) S5000x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x1.size a ≤ S128x1.size a
  hwx1_6 : ∀ i : grid1.Coords, EltTy.bits .bf16 = 32 ∨ (Rect.block (s := S128x1) S128x1.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x1.size a ≤ S1x1.size a
  hwx1_7 : ∀ i : grid1.Coords, EltTy.bits .f32 = 32 ∨ (Rect.block (s := S1x1) S1x1.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x1.size a ≤ S50000x1.size a
  hwx1_8 : ∀ i : grid1.Coords, EltTy.bits .f32 = 32 ∨ (Rect.block (s := S50000x1) S5000x1.size (cc1_transform_8 i) (hinb1_8 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_v27) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S5000x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v29) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v39) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v16) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v12) S5000x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v17) S128x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v41) S1x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v42) S5000x1.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S1x128 : Shape := ⟨2, ![1, 128]⟩
abbrev S1x1 : Shape := ⟨2, ![1, 1]⟩

abbrev nBuf : Space → Nat
  | .hbm => 87
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x1, .f32⟩
  | .hbm, ⟨9, _⟩ => ⟨S1, .f32⟩
  | .hbm, ⟨10, _⟩ => ⟨S1x600000, .i32⟩
  | .hbm, ⟨11, _⟩ => ⟨S600000, .i32⟩
  | .hbm, ⟨12, _⟩ => ⟨S1x600000, .i32⟩
  | .hbm, ⟨13, _⟩ => ⟨S600000, .i32⟩
  | .hbm, ⟨14, _⟩ => ⟨S_, .i32⟩
  | .hbm, ⟨15, _⟩ => ⟨S600000, .i32⟩
  | .hbm, ⟨16, _⟩ => ⟨S600000, .i1⟩
  | .hbm, ⟨17, _⟩ => ⟨S_, .i32⟩
  | .hbm, ⟨18, _⟩ => ⟨S600000, .i32⟩
  | .hbm, ⟨19, _⟩ => ⟨S600000, .i32⟩
  | .hbm, ⟨20, _⟩ => ⟨S600000, .i32⟩
  | .hbm, ⟨21, _⟩ => ⟨S600000x1, .i32⟩
  | .hbm, ⟨22, _⟩ => ⟨S600000x128, .f32⟩
  | .hbm, ⟨23, _⟩ => ⟨S_, .f32⟩
  | .hbm, ⟨24, _⟩ => ⟨S50000x128, .f32⟩
  | .hbm, ⟨25, _⟩ => ⟨S600000x1, .i32⟩
  | .hbm, ⟨26, _⟩ => ⟨S50000x128, .f32⟩
  | .hbm, ⟨27, _⟩ => ⟨S_, .f32⟩
  | .hbm, ⟨28, _⟩ => ⟨S600000, .f32⟩
  | .hbm, ⟨29, _⟩ => ⟨S_, .f32⟩
  | .hbm, ⟨30, _⟩ => ⟨S50000, .f32⟩
  | .hbm, ⟨31, _⟩ => ⟨S600000x1, .i32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S50000x128, .f32⟩
  | .hbm, ⟨43, _⟩ => ⟨S50000x128, .f32⟩
  | .hbm, ⟨44, _⟩ => ⟨S50000x128, .f32⟩
  | .hbm, ⟨45, _⟩ => ⟨S_, .f32⟩
  | .hbm, ⟨46, _⟩ => ⟨S50000x128, .f32⟩
  | .hbm, ⟨47, _⟩ => ⟨S50000x128, .f32⟩
  | .hbm, ⟨48, _⟩ => ⟨S_, .i32⟩
  | .hbm, ⟨49, _⟩ => ⟨S600000, .i32⟩
  | .hbm, ⟨50, _⟩ => ⟨S600000, .i1⟩
  | .hbm, ⟨51, _⟩ => ⟨S_, .i32⟩
  | .hbm, ⟨52, _⟩ => ⟨S600000, .i32⟩
  | .hbm, ⟨53, _⟩ => ⟨S600000, .i32⟩
  | .hbm, ⟨54, _⟩ => ⟨S600000, .i32⟩
  | .hbm, ⟨55, _⟩ => ⟨S600000x1, .i32⟩
  | .hbm, ⟨56, _⟩ => ⟨S600000x128, .f32⟩
  | .hbm, ⟨57, _⟩ => ⟨S_, .f32⟩
  | .hbm, ⟨58, _⟩ => ⟨S50000x128, .f32⟩
  | .hbm, ⟨59, _⟩ => ⟨S600000x1, .i32⟩
  | .hbm, ⟨60, _⟩ => ⟨S50000x128, .f32⟩
  | .hbm, ⟨61, _⟩ => ⟨S_, .f32⟩
  | .hbm, ⟨62, _⟩ => ⟨S600000, .f32⟩
  | .hbm, ⟨63, _⟩ => ⟨S_, .f32⟩
  | .hbm, ⟨64, _⟩ => ⟨S50000, .f32⟩
  | .hbm, ⟨65, _⟩ => ⟨S600000x1, .i32⟩
  | .hbm, ⟨66, _⟩ => ⟨S50000, .f32⟩
  | .hbm, ⟨67, _⟩ => ⟨S_, .f32⟩
  | .hbm, ⟨68, _⟩ => ⟨S50000, .f32⟩
  | .hbm, ⟨69, _⟩ => ⟨S50000, .f32⟩
  | .hbm, ⟨70, _⟩ => ⟨S50000x1, .f32⟩
  | .hbm, ⟨71, _⟩ => ⟨S50000x128, .f32⟩
  | .hbm, ⟨72, _⟩ => ⟨S50000x128, .f32⟩
  | .hbm, ⟨73, _⟩ => ⟨S50000x128, .f32⟩
  | .hbm, ⟨74, _⟩ => ⟨S1x128, .f32⟩
  | .hbm, ⟨75, _⟩ => ⟨S50000x128, .f32⟩
  | .hbm, ⟨76, _⟩ => ⟨S50000x128, .f32⟩
  | .hbm, ⟨77, _⟩ => ⟨S50000x128, .f32⟩
  | .hbm, ⟨78, _⟩ => ⟨S50000x128, .f32⟩
  | .hbm, ⟨79, _⟩ => ⟨S_, .f32⟩
  | .hbm, ⟨80, _⟩ => ⟨S50000x128, .f32⟩
  | .hbm, ⟨81, _⟩ => ⟨S50000x128, .f32⟩
  | .hbm, ⟨82, _⟩ => ⟨S50000x1, .f32⟩
  | .hbm, ⟨83, _⟩ => ⟨S1x1, .f32⟩
  | .hbm, ⟨84, _⟩ => ⟨S50000x1, .f32⟩
  | .hbm, ⟨85, _⟩ => ⟨S50000x1, .f32⟩
  | .hbm, ⟨86, _⟩ => ⟨S50000, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call0_cst : Ref sig .tc := ⟨.hbm, 45, rfl⟩
abbrev main_call0_v0 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_call1_cst : Ref sig .tc := ⟨.hbm, 79, rfl⟩
abbrev main_call1_v0 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []
  dot_S50000x128_S128x1_S50000x1_1_0_0_1_n_n_wf : DotDims.WF S50000x128 S128x1 S50000x1 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.KernelRun.lean ====
/-
  The idealized kernel program's run with its result buffer named.

  The program is five segments: host operations, the first layer's pallas_call, host operations, the second
  layer's pallas_call with the output head, one last reshape.  Every weakly fair execution from a memory with zero
  counters terminates without a fault, and in every final state the result buffer holds what the fold of the
  segments over the launch memory leaves there (the contents `W5` of the last segment boundary, read at the
  result buffer), while the ten argument arrays are as launched.  The other modules read that fold back, one
  segment at a time, to a function of the argument arrays.
-/
import proofs.«106780_j5085241279116_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer at the last boundary's contents and the arguments unchanged. -/
theorem run_named : θ_run defs (onTc (τ := τ) (main (F := F))) ⟨m, fun _ => 0, ρ⟩ (fun r => ∀ c : Dev nD,
      r.2.mem ((c.tc : Thread nD τ).loc main_v43) = W5 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v43 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c)⟩)

end Cert.KernelIdeal.Named

end
-- ==== Proof.KernelChain.lean ====
/-
  The part of the network both programs compute by the same host operations, named once so that it is never
  opened: from the edge list (a 2 × 600000 array of node numbers, row 0 the sources, row 1 the destinations), the
  destination column, the source column (a negative source number counted from the end, as array indexing
  does), the sum over each node's incoming edges of the source rows of an array (`agg`), and each node's number
  of incoming edges (`deg`).
-/
import proofs.«106780_j5085241279116_2_alg».proof.Proof.Gen.KernelIdeal
import Idealize.ShloMosaic.PureOps.Ideal

noncomputable section

namespace Cert.KernelIdeal.Chain

open Cert.KernelIdeal Cert.KernelIdeal.Facts₀ Cert.KernelIdeal.Facts Idealize.ShloMosaic

/-- The destinations, as a 600000 × 1 column. -/
def dstCol (e : IVec S2x600000 32) : IVec S600000x1 32 :=
  broadcastInDim S600000x1 ![0] bcast_S600000_S600000x1_0 (shapeCast _ (extractStridedSlice S1x600000 ![1, 0] e slices_S2x600000_S1x600000_1_0) shapeCasts_S1x600000_S600000)

/-- The sources, as a vector. -/
def srcRow (e : IVec S2x600000 32) : IVec S600000 32 :=
  shapeCast _ (extractStridedSlice S1x600000 ![0, 0] e slices_S2x600000_S1x600000_0_0) shapeCasts_S1x600000_S600000

/-- The sources as a column, a negative number moved up by the node count. -/
def srcCol (e : IVec S2x600000 32) : IVec S600000x1 32 :=
  broadcastInDim S600000x1 ![0] bcast_S600000_S600000x1_0 (select (cmpi .slt (srcRow e) (broadcastInDim S600000 ![] bcast_S_S600000 (constantI S_ 32 0#32))) (addi (srcRow e) (broadcastInDim S600000 ![] bcast_S_S600000 (constantI S_ 32 50000#32))) (srcRow e))

/-- Each node's sum of the rows of `x` at its incoming edges' sources. -/
def agg (e : IVec S2x600000 32) (x : FVec Ideal S50000x128 .f32) : FVec Ideal S50000x128 .f32 :=
  Host.scatterAdd scatter_S50000x128_S600000x1_S600000x128_1_0_0_1 (broadcastInDim S50000x128 ![] bcast_S_S50000x128 (constant S_ .f32 0x00000000#32)) (dstCol e) (Host.gather gather_S50000x128_S600000x1_S600000x128_1_0_n_n_0_1_1128 x (srcCol e))

/-- Each node's number of incoming edges. -/
def deg (e : IVec S2x600000 32) : FVec Ideal S50000 .f32 :=
  Host.scatterAdd scatter_S50000_S600000x1_S600000_n_0_0_1 (broadcastInDim S50000 ![] bcast_S_S50000 (constant S_ .f32 0x00000000#32)) (dstCol e) (broadcastInDim S600000 ![] bcast_S_S600000 (constant S_ .f32 0x3F800000#32))

end Cert.KernelIdeal.Chain

end
-- ==== Proof.KernelHost.lean ====
/-
  The buffers the two pallas_calls read and the result buffer, read back through the program's host operations to
  the argument arrays.

  Before the first call the host computes, from the edge list, the summed neighbour rows of the node features and
  the column of reciprocals 1 / max(degree, 1), casts the five weight arrays to the narrow float format (the
  identity on extended reals) and lays the first bias vector as a row. Between the calls it sums the neighbour
  rows of the first call's output array and lays the second bias vector and the output bias as a row and a
  1 × 1 array. After the second call it drops the unit axis of that call's output column. A buffer no segment
  writes keeps its contents.
-/
import proofs.«106780_j5085241279116_2_alg».proof.Proof.Gen.KernelIdeal.Frame
import proofs.«106780_j5085241279116_2_alg».proof.Proof.KernelChain
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-- The column of reciprocals 1 / max(degree, 1), as the host computes it from the edge list. -/
def recipCol (e : IVec S2x600000 32) : FVec Ideal S50000x1 .f32 :=
  shapeCast _ (Host.divf (broadcastInDim S50000 ![] bcast_S_S50000 (constant S_ .f32 0x3F800000#32))
    (maximumf (Chain.deg e) (broadcastInDim S50000 ![] bcast_S_S50000 (constant S_ .f32 0x3F800000#32)))) shapeCasts_S50000_S50000x1

/-! ## Before the first call -/

theorem W1_v1 : W1 m ρ c (Proc.devRef .tc main_v1) = Chain.srcRow (m ((c : Thread nD τ).loc main_arg1)) := by
  show StableHlo.after hostOps0 (W0 m ρ c) (Proc.devRef .tc main_v1) = _
  after_results_simp <;> rfl

theorem W1_v3 : W1 m ρ c (Proc.devRef .tc main_v3)
    = shapeCast _ (extractStridedSlice S1x600000 ![1, 0] (m ((c : Thread nD τ).loc main_arg1)) slices_S2x600000_S1x600000_1_0) shapeCasts_S1x600000_S600000 := by
  show StableHlo.after hostOps0 (W0 m ρ c) (Proc.devRef .tc main_v3) = _
  after_results_simp <;> rfl

theorem W1_arg0 : W1 m ρ c (Proc.devRef .tc main_arg0) = (m ((c : Thread nD τ).loc main_arg0)) := by
  show StableHlo.after hostOps0 (W0 m ρ c) (Proc.devRef .tc main_arg0) = _
  after_results_simp <;> rfl

theorem W1_arg6 : W1 m ρ c (Proc.devRef .tc main_arg6) = (m ((c : Thread nD τ).loc main_arg6)) := by
  show StableHlo.after hostOps0 (W0 m ρ c) (Proc.devRef .tc main_arg6) = _
  after_results_simp <;> rfl

theorem W1_arg9 : W1 m ρ c (Proc.devRef .tc main_arg9) = (m ((c : Thread nD τ).loc main_arg9)) := by
  show StableHlo.after hostOps0 (W0 m ρ c) (Proc.devRef .tc main_arg9) = _
  after_results_simp <;> rfl

theorem W1_v27 : W1 m ρ c (Proc.devRef .tc main_v27) = Chain.agg (m ((c : Thread nD τ).loc main_arg1)) (m ((c : Thread nD τ).loc main_arg0)) := by
  show StableHlo.after hostOps0 (W0 m ρ c) (Proc.devRef .tc main_v27) = _
  after_results_simp <;> rfl

theorem W1_v12 : W1 m ρ c (Proc.devRef .tc main_v12) = recipCol (m ((c : Thread nD τ).loc main_arg1)) := by
  show StableHlo.after hostOps0 (W0 m ρ c) (Proc.devRef .tc main_v12) = _
  after_results_simp <;> rfl

theorem W1_v13 : W1 m ρ c (Proc.devRef .tc main_v13) = (truncf .bf16 ((m ((c : Thread nD τ).loc main_arg2)) : FVec Ideal S128x128 .f32) bitsLt_bf16_f32 : FVec Ideal S128x128 .bf16) := by
  show StableHlo.after hostOps0 (W0 m ρ c) (Proc.devRef .tc main_v13) = _
  after_results_simp <;> rfl

theorem W1_v14 : W1 m ρ c (Proc.devRef .tc main_v14) = (truncf .bf16 ((m ((c : Thread nD τ).loc main_arg4)) : FVec Ideal S128x128 .f32) bitsLt_bf16_f32 : FVec Ideal S128x128 .bf16) := by
  show StableHlo.after hostOps0 (W0 m ρ c) (Proc.devRef .tc main_v14) = _
  after_results_simp <;> rfl

theorem W1_v15 : W1 m ρ c (Proc.devRef .tc main_v15) = (truncf .bf16 ((m ((c : Thread nD τ).loc main_arg5)) : FVec Ideal S128x128 .f32) bitsLt_bf16_f32 : FVec Ideal S128x128 .bf16) := by
  show StableHlo.after hostOps0 (W0 m ρ c) (Proc.devRef .tc main_v15) = _
  after_results_simp <;> rfl

theorem W1_v16 : W1 m ρ c (Proc.devRef .tc main_v16) = (truncf .bf16 ((m ((c : Thread nD τ).loc main_arg7)) : FVec Ideal S128x128 .f32) bitsLt_bf16_f32 : FVec Ideal S128x128 .bf16) := by
  show StableHlo.after hostOps0 (W0 m ρ c) (Proc.devRef .tc main_v16) = _
  after_results_simp <;> rfl

theorem W1_v17 : W1 m ρ c (Proc.devRef .tc main_v17) = (truncf .bf16 ((m ((c : Thread nD τ).loc main_arg8)) : FVec Ideal S128x1 .f32) bitsLt_bf16_f32 : FVec Ideal S128x1 .bf16) := by
  show StableHlo.after hostOps0 (W0 m ρ c) (Proc.devRef .tc main_v17) = _
  after_results_simp <;> rfl

theorem W1_v28 : W1 m ρ c (Proc.devRef .tc main_v28) = shapeCast _ (m ((c : Thread nD τ).loc main_arg3)) shapeCasts_S128_S1x128 := by
  show StableHlo.after hostOps0 (W0 m ρ c) (Proc.devRef .tc main_v28) = _
  after_results_simp <;> rfl

/-! ## Across the first call: only its output array changes -/

theorem W2_v29 : W2 m ρ c (Proc.devRef .tc main_v29) = (dat0 (V1 m ρ) c).arrAt 6 cfg0.N := W2_arr m ρ c 6

theorem W2_v12 : W2 m ρ c (Proc.devRef .tc main_v12) = recipCol (m ((c : Thread nD τ).loc main_arg1)) :=
  (W2_arr m ρ c 5).trans ((((dat0 (V1 m ρ) c).arrAt_in 5 rfl _).trans (A_eq0 (V1 m ρ) c 5)).trans (W1_v12 m ρ c))

theorem W2_v1 : W2 m ρ c (Proc.devRef .tc main_v1) = Chain.srcRow (m ((c : Thread nD τ).loc main_arg1)) :=
  (W2_of_ne m ρ c main_v1 (by decide)).trans (W1_v1 m ρ c)

theorem W2_v3 : W2 m ρ c (Proc.devRef .tc main_v3)
    = shapeCast _ (extractStridedSlice S1x600000 ![1, 0] (m ((c : Thread nD τ).loc main_arg1)) slices_S2x600000_S1x600000_1_0) shapeCasts_S1x600000_S600000 :=
  (W2_of_ne m ρ c main_v3 (by decide)).trans (W1_v3 m ρ c)

theorem W2_v15 : W2 m ρ c (Proc.devRef .tc main_v15) = (truncf .bf16 ((m ((c : Thread nD τ).loc main_arg5)) : FVec Ideal S128x128 .f32) bitsLt_bf16_f32 : FVec Ideal S128x128 .bf16) :=
  (W2_of_ne m ρ c main_v15 (by decide)).trans (W1_v15 m ρ c)

theorem W2_v16 : W2 m ρ c (Proc.devRef .tc main_v16) = (truncf .bf16 ((m ((c : Thread nD τ).loc main_arg7)) : FVec Ideal S128x128 .f32) bitsLt_bf16_f32 : FVec Ideal S128x128 .bf16) :=
  (W2_of_ne m ρ c main_v16 (by decide)).trans (W1_v16 m ρ c)

theorem W2_v17 : W2 m ρ c (Proc.devRef .tc main_v17) = (truncf .bf16 ((m ((c : Thread nD τ).loc main_arg8)) : FVec Ideal S128x1 .f32) bitsLt_bf16_f32 : FVec Ideal S128x1 .bf16) :=
  (W2_of_ne m ρ c main_v17 (by decide)).trans (W1_v17 m ρ c)

theorem W2_arg6 : W2 m ρ c (Proc.devRef .tc main_arg6) = (m ((c : Thread nD τ).loc main_arg6)) :=
  (W2_of_ne m ρ c main_arg6 (by decide)).trans (W1_arg6 m ρ c)

theorem W2_arg9 : W2 m ρ c (Proc.devRef .tc main_arg9) = (m ((c : Thread nD τ).loc main_arg9)) :=
  (W2_of_ne m ρ c main_arg9 (by decide)).trans (W1_arg9 m ρ c)

/-! ## Between the calls -/

theorem W3_v39 : W3 m ρ c (Proc.devRef .tc main_v39) = Chain.agg (m ((c : Thread nD τ).loc main_arg1)) ((dat0 (V1 m ρ) c).arrAt 6 cfg0.N) := by
  show StableHlo.after hostOps1 (W2 m ρ c) (Proc.devRef .tc main_v39) = _
  after_results_simp
  rw [W2_v1, W2_v3, W2_v29]
  rfl

theorem W3_v29 : W3 m ρ c (Proc.devRef .tc main_v29) = (dat0 (V1 m ρ) c).arrAt 6 cfg0.N := by
  show StableHlo.after hostOps1 (W2 m ρ c) (Proc.devRef .tc main_v29) = _
  after_results_simp
  exact W2_v29 m ρ c

theorem W3_v12 : W3 m ρ c (Proc.devRef .tc main_v12) = recipCol (m ((c : Thread nD τ).loc main_arg1)) := by
  show StableHlo.after hostOps1 (W2 m ρ c) (Proc.devRef .tc main_v12) = _
  after_results_simp
  exact W2_v12 m ρ c

theorem W3_v15 : W3 m ρ c (Proc.devRef .tc main_v15) = (truncf .bf16 ((m ((c : Thread nD τ).loc main_arg5)) : FVec Ideal S128x128 .f32) bitsLt_bf16_f32 : FVec Ideal S128x128 .bf16) := by
  show StableHlo.after hostOps1 (W2 m ρ c) (Proc.devRef .tc main_v15) = _
  after_results_simp
  exact W2_v15 m ρ c

theorem W3_v16 : W3 m ρ c (Proc.devRef .tc main_v16) = (truncf .bf16 ((m ((c : Thread nD τ).loc main_arg7)) : FVec Ideal S128x128 .f32) bitsLt_bf16_f32 : FVec Ideal S128x128 .bf16) := by
  show StableHlo.after hostOps1 (W2 m ρ c) (Proc.devRef .tc main_v16) = _
  after_results_simp
  exact W2_v16 m ρ c

theorem W3_v17 : W3 m ρ c (Proc.devRef .tc main_v17) = (truncf .bf16 ((m ((c : Thread nD τ).loc main_arg8)) : FVec Ideal S128x1 .f32) bitsLt_bf16_f32 : FVec Ideal S128x1 .bf16) := by
  show StableHlo.after hostOps1 (W2 m ρ c) (Proc.devRef .tc main_v17) = _
  after_results_simp
  exact W2_v17 m ρ c

theorem W3_v40 : W3 m ρ c (Proc.devRef .tc main_v40) = shapeCast _ (m ((c : Thread nD τ).loc main_arg6)) shapeCasts_S128_S1x128 := by
  show StableHlo.after hostOps1 (W2 m ρ c) (Proc.devRef .tc main_v40) = _
  after_results_simp
  rw [W2_arg6]
  rfl

theorem W3_v41 : W3 m ρ c (Proc.devRef .tc main_v41) = shapeCast _ (m ((c : Thread nD τ).loc main_arg9)) shapeCasts_S1_S1x1 := by
  show StableHlo.after hostOps1 (W2 m ρ c) (Proc.devRef .tc main_v41) = _
  after_results_simp
  rw [W2_arg9]
  rfl

/-! ## The second call's output, and the last reshape -/

theorem W5_v43 : W5 m ρ c (Proc.devRef .tc main_v43)
    = shapeCast _ ((dat1 (V3 m ρ) c).arrAt 8 cfg1.N) shapeCasts_S50000x1_S50000 := by
  show StableHlo.after hostOps2 (W4 m ρ c) (Proc.devRef .tc main_v43) = _
  after_results
  rw [show W4 m ρ c (Proc.devRef .tc main_v42) = (dat1 (V3 m ρ) c).arrAt 8 cfg1.N from W4_arr m ρ c 8]
  rfl

end Cert.KernelIdeal.Fold

end
-- ==== Proof.SageLaw.lean ====
/-
  One graph layer, entry by entry, on the extended reals, in the two spellings the two programs use, and the
  law that joins them.

  A node's hidden entry is  max(Σ_k a_k · Wl[k,c] + Σ_k x_k · Wr[k,c] + b[c], z)  where a_k is the node's
  summed neighbour feature k divided by max(degree, 1).  One program divides the summed feature by
  max(degree, 1) and adds the bias before the second product; the other multiplies the summed feature by the
  stored reciprocal 1 / max(degree, 1) and adds the bias last.  The divisor max(g, 1) is at least 1 whatever
  the extended real g is, so it is never 0, and on the extended reals a quotient by a non-zero divisor IS the
  product with the divisor's inverse: x / d = x · d⁻¹ and 1 / d = 1 · d⁻¹ = d⁻¹.  Hence x · (1 / d) = x / d
  for every extended real x, infinite ones included; no finiteness is used.  The two orders of the three
  summands agree because addition of extended reals is commutative and associative.
-/
import Idealize.ShloMosaic.Lib.ValueIdx
import Idealize.ShloMosaic.PureOps.Ideal.Laws

noncomputable section

namespace Cert.Sage

open Idealize.ShloMosaic Idealize.ShloMosaic.ValueIdx

/-- An a × b matrix of extended reals, indexed by the two-coordinate index of its shape. -/
abbrev Mat (a b : ℕ) : Type := (⟨2, ![a, b]⟩ : Shape).Idx → EReal

/-- The value of the word that spells 1.0. -/
abbrev oneW : EReal := Ideal.ofBits .f32 0x3F800000#32

/-- The value of the word that spells +0.0 (the floor of the rectifier; never evaluated: both programs spell the
    same word). -/
abbrev zeroW : EReal := Ideal.ofBits .f32 0x00000000#32

/-- The word that spells 1.0 denotes the real number one. -/
theorem oneW_eq : oneW = 1 := by
  simp [oneW, Ideal.ofBits, Ideal.ieee, -EReal.coe_mul]; norm_num

/-- max(g, 1) is never zero. -/
theorem max_one_ne_zero (g : EReal) : max g oneW ≠ 0 := by
  rw [oneW_eq]
  exact (lt_of_lt_of_le zero_lt_one (le_max_right g 1)).ne'

/-- Multiplying by the reciprocal of max(g, 1) is dividing by max(g, 1), for every extended real x. -/
theorem mul_recip (x g : EReal) : x * Ideal.div oneW (max g oneW) = Ideal.div x (max g oneW) := by
  have hd := max_one_ne_zero g
  rw [Ideal.div, if_neg hd, Ideal.div, if_neg hd, oneW_eq, one_mul]

/-- A hidden entry in the spelling that DIVIDES the summed neighbour features by max(degree, 1) and adds the
    bias before the node's own product. `g p` is node p's degree, `b` the bias vector, `z` the floor. -/
def meanLayer {N : ℕ} (msg x : Mat N 128) (wl wr : Mat 128 128) (b : Fin 128 → EReal) (g : Fin N → EReal)
    (z : EReal) (p : Fin N) (c : Fin 128) : EReal :=
  max (((∑ k : Fin 128, Ideal.div (msg (ix2 p k)) (max (g p) oneW) * wl (ix2 k c)) + b c)
        + ∑ k : Fin 128, x (ix2 p k) * wr (ix2 k c)) z

/-- The same entry in the spelling that MULTIPLIES by a stored reciprocal column `inv` and adds the bias row
    last. -/
def scaledLayer {N : ℕ} (msg x : Mat N 128) (wl wr : Mat 128 128) (brow : Mat 1 128) (inv : Mat N 1)
    (z : EReal) (p : Fin N) (c : Fin 128) : EReal :=
  max (((∑ k : Fin 128, (msg (ix2 p k) * inv (ix2 p (0 : Fin 1))) * wl (ix2 k c))
        + ∑ k : Fin 128, x (ix2 p k) * wr (ix2 k c)) + brow (ix2 (0 : Fin 1) c)) z

/-- THE LAW: when the stored column holds 1 / max(degree, 1) and the bias row holds the bias vector, the two
    spellings are one number. -/
theorem scaled_eq_mean {N : ℕ} (msg x : Mat N 128) (wl wr : Mat 128 128) (b : Fin 128 → EReal)
    (g : Fin N → EReal) (brow : Mat 1 128) (inv : Mat N 1) (z : EReal) (p : Fin N) (c : Fin 128)
    (hinv : inv (ix2 p (0 : Fin 1)) = Ideal.div oneW (max (g p) oneW))
    (hb : brow (ix2 (0 : Fin 1) c) = b c) :
    scaledLayer msg x wl wr brow inv z p c = meanLayer msg x wl wr b g z p c := by
  unfold scaledLayer meanLayer
  rw [hinv, hb, add_right_comm]
  have e : (∑ k : Fin 128, (msg (ix2 p k) * Ideal.div oneW (max (g p) oneW)) * wl (ix2 k c))
      = ∑ k : Fin 128, Ideal.div (msg (ix2 p k)) (max (g p) oneW) * wl (ix2 k c) :=
    Finset.sum_congr rfl fun k _ => by rw [mul_recip]
  rw [e]

/-- The output entry of a node: its hidden row against the output column, plus the output bias. -/
def headOf {N : ℕ} (h : Fin N → Fin 128 → EReal) (wo : Mat 128 1) (bo : EReal) (p : Fin N) : EReal :=
  (∑ c : Fin 128, h p c * wo (ix2 c (0 : Fin 1))) + bo

/-- The first layer's hidden array, from the node features `x`: `agg` sums each node's neighbours' rows of its
    argument (the two programs compute it by the same gather and scatter-add, which is never opened), `g` is
    the degree. -/
def hidden1 (agg : Mat 50000 128 → Mat 50000 128) (g : Fin 50000 → EReal) (x : Mat 50000 128)
    (wl wr : Mat 128 128) (b : Fin 128 → EReal) : Mat 50000 128 :=
  fun j => meanLayer (agg x) x wl wr b g zeroW (j 0) (j 1)

/-- The network's output at node `p`: the second layer over the first layer's hidden array, then the head. -/
def output (agg : Mat 50000 128 → Mat 50000 128) (g : Fin 50000 → EReal) (x : Mat 50000 128)
    (w1l w1r : Mat 128 128) (b1 : Fin 128 → EReal) (w2l w2r : Mat 128 128) (b2 : Fin 128 → EReal)
    (wo : Mat 128 1) (bo : EReal) (p : Fin 50000) : EReal :=
  headOf (meanLayer (agg (hidden1 agg g x w1l w1r b1)) (hidden1 agg g x w1l w1r b1) w2l w2r b2 g zeroW) wo bo p

end Cert.Sage

end
-- ==== Proof.LibMatmulRowCol.lean ====
/-
  A plain matrix product into a zero accumulator, read at an entry, at the ideal values.

  For any dimension numbers over an [M, K] left operand, a [K, N] right operand and an [M, N] result that
  contract the left operand's second axis against the right operand's first (stated as four coordinate facts
  about the dimension numbers' operand indices, which a literal record proves by unfolding), entry (p, c) of
  `matmul D none X W 0` is the sum over k of X p k · W k c. General in M, K, N and in both operand formats;
  nothing in it is specific to one kernel.
-/
import Idealize.ShloMosaic.Lib.ValueIdx
import Idealize.ShloMosaic.PureOps.Ideal.Laws

noncomputable section

namespace Cert.LibMatmul

open Idealize.ShloMosaic Idealize.ShloMosaic.ValueIdx

/-- For dimension numbers contracting the left operand's columns against the right operand's rows
    (the four coordinate facts hl0 … hr1 say so), entry (p, c) of the product into a zero accumulator
    is Σ_k X p k · W k c. -/
theorem matmul_rowcol {M K N : Nat} {φ₁ φ₂ : FTy}
    (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (X : FVec Ideal ⟨2, ![M, K]⟩ φ₁) (W : FVec Ideal ⟨2, ![K, N]⟩ φ₂) (p : Fin M) (c : Fin N) :
    matmul D none X W (constant ⟨2, ![M, N]⟩ .f32 0x00000000#32) (ix2 p c)
      = ∑ k : Fin K, X (ix2 p k) * W (ix2 k c) := by
  refine (Ideal.matmul_constant_zero_apply D none X W (ix2 p c)).trans ?_
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.LibMatmul

end
-- ==== Proof.LibColumn.lean ====
/-
  Column forms of two layout operations, read at an index.

  A vector of length `a` viewed as an `[a, 1]` column by a shape cast reads, at `(p, 0)`, the vector at `p`, and the column
  viewed back as a vector reads, at `p`, the column at `(p, 0)`; an `[a, 1]` column broadcast along its unit axis to `[a, b]`
  reads, at `(p, q)`, the column at `(p, 0)`. Together they are what a sum along the last axis that keeps the axis (a row
  sum stored as a column, then spread over the row) reads at an index.
-/
import Idealize.ShloMosaic.Lib.Pipeline.Value
import Idealize.ShloMosaic.Lib.ValueIdx

namespace Cert.Lib.Column

open Idealize.ShloMosaic Idealize.ShloMosaic.ValueIdx

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column cast to `[a]` reads, at `p`, the column's entry of row `p`. -/
theorem shapeCast_a1_a_apply {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- An `[a, 1]` column broadcast to `[a, b]` reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.Lib.Column
-- ==== Proof.KernelBlocksPayload.lean ====
/-
  The arithmetic of the two kernel bodies, read at one entry of the block they write.

  The first body's result at row p, column c of its block is the rectified sum of two matrix products and the
  bias row: the summed neighbour rows, each scaled by the row's stored reciprocal, against the left weights; the
  node's own row against the right weights. A matrix product into a zero accumulator read at an entry is the sum
  over the contracted axis; a column or a row spread over the block reads its one entry of that row or column; a
  change of float format is the identity on extended reals. The second body applies the same layer and then one
  more product, with the output column, and adds the output bias.
-/
import proofs.«106780_j5085241279116_2_alg».proof.Proof.Gen.KernelIdeal.Skeleton
import proofs.«106780_j5085241279116_2_alg».proof.Proof.SageLaw
import proofs.«106780_j5085241279116_2_alg».proof.Proof.LibMatmulRowCol
import proofs.«106780_j5085241279116_2_alg».proof.Proof.LibColumn
import Idealize.ShloMosaic.Lib.ValueLayout

set_option maxRecDepth 16384

noncomputable section

namespace Cert.KernelIdeal.Blocks

open Cert.KernelIdeal Cert.KernelIdeal.Gen Cert.Sage
open Idealize.ShloMosaic Idealize.ShloMosaic.ValueIdx

/-- A [5000, 128] by [128, 128] product into a zero accumulator, at entry (p, c): Σ_k X p k · W k c. -/
theorem matmul_square_apply {φ₁ φ₂ : FTy} (X : FVec Ideal S5000x128 φ₁) (W : FVec Ideal S128x128 φ₂) (p : Fin 5000) (c : Fin 128) :
    matmul dot_S5000x128_S128x128_S5000x128_1_0_0_1_n_n none X W (constant (F := Ideal) S5000x128 .f32 0x00000000#32) (ix2 p c)
      = ∑ k : Fin 128, X (ix2 p k) * W (ix2 k c) :=
  Cert.LibMatmul.matmul_rowcol (M := 5000) (K := 128) (N := 128) dot_S5000x128_S128x128_S5000x128_1_0_0_1_n_n rfl rfl
    (fun i q => rfl)
    (fun i q => DotDims.lhsIdx_val_of_single dot_S5000x128_S128x128_S5000x128_1_0_0_1_n_n rfl i q)
    (fun i q => DotDims.rhsIdx_val_of_single dot_S5000x128_S128x128_S5000x128_1_0_0_1_n_n rfl i q)
    (fun i q => rfl) X W p c

/-- A [5000, 128] by [128, 1] product into a zero accumulator, at entry (p, 0): Σ_k X p k · W k 0. -/
theorem matmul_column_apply {φ₁ φ₂ : FTy} (X : FVec Ideal S5000x128 φ₁) (W : FVec Ideal S128x1 φ₂) (p : Fin 5000) (c : Fin 1) :
    matmul dot_S5000x128_S128x1_S5000x1_1_0_0_1_n_n none X W (constant (F := Ideal) S5000x1 .f32 0x00000000#32) (ix2 p c)
      = ∑ k : Fin 128, X (ix2 p k) * W (ix2 k c) :=
  Cert.LibMatmul.matmul_rowcol (M := 5000) (K := 128) (N := 1) dot_S5000x128_S128x1_S5000x1_1_0_0_1_n_n rfl rfl
    (fun i q => rfl)
    (fun i q => DotDims.lhsIdx_val_of_single dot_S5000x128_S128x1_S5000x1_1_0_0_1_n_n rfl i q)
    (fun i q => DotDims.rhsIdx_val_of_single dot_S5000x128_S128x1_S5000x1_1_0_0_1_n_n rfl i q)
    (fun i q => rfl) X W p c

/-- The first body's result at row p, column c of its block is the layer's entry of the loaded blocks. -/
theorem k0_pay1_apply (v0 : Vec Ideal S5000x128 .f32) (v2 : Vec Ideal S5000x1 .f32) (v7 : Vec Ideal S5000x128 .f32)
    (v9 : Vec Ideal S128x128 .bf16) (v11 : Vec Ideal S128x128 .bf16) (v16 : Vec Ideal S1x128 .f32) (p : Fin 5000) (c : Fin 128) :
    k0_pay1 (F := Ideal) v0 v2 v7 v9 v11 v16 (ix2 p c) = scaledLayer v0 v7 v9 v11 v16 v2 zeroW p c := by
  unfold k0_pay1 scaledLayer
  simp only [shapeCast_self, maximumf_apply, addf_apply, broadcast_apply, matmul_square_apply, truncf_apply, mulf_apply,
    Cert.Lib.Column.broadcastTo_a1_ab_apply, broadcastTo_1b_ab_apply]
  rfl

/-- The second body's result at row p of its block is the head of the layer's row p of the loaded blocks. -/
theorem k1_pay1_apply (v0 : Vec Ideal S5000x128 .f32) (v2 : Vec Ideal S5000x1 .f32) (v7 : Vec Ideal S5000x128 .f32)
    (v10 : Vec Ideal S128x128 .bf16) (v12 : Vec Ideal S128x128 .bf16) (v17 : Vec Ideal S1x128 .f32)
    (v24 : Vec Ideal S128x1 .bf16) (v27 : Vec Ideal S1x1 .f32) (p : Fin 5000) :
    k1_pay1 (F := Ideal) v0 v2 v7 v10 v12 v17 v24 v27 (ix2 p (0 : Fin 1))
      = headOf (scaledLayer v0 v7 v10 v12 v17 v2 zeroW) v24 (v27 (ix2 (0 : Fin 1) (0 : Fin 1))) p := by
  unfold k1_pay1 headOf scaledLayer
  simp only [shapeCast_self, maximumf_apply, addf_apply, broadcast_apply, matmul_square_apply, matmul_column_apply, truncf_apply,
    mulf_apply, Cert.Lib.Column.broadcastTo_a1_ab_apply, broadcastTo_1b_ab_apply]
  rfl

end Cert.KernelIdeal.Blocks

end
-- ==== Proof.KernelBlocks.lean ====
/-
  What each of the two pallas_calls leaves in its output array, as one function of the arrays it reads.

  Each call walks ten blocks of 5000 rows. At a block the body multiplies the summed neighbour rows by the stored
  reciprocal column, takes two matrix products with the resident weights (a change of float format is the
  identity here), adds the bias row and floors at zero; the second call also multiplies the floored row by the
  output column and adds the output bias. Row r of the output array is written by block r / 5000, from rows of
  the same number in the row-blocked inputs, so the array is `Cert.Sage.scaledLayer` (and `headOf` of it) of the
  whole input arrays.

  The steps, for each call: the block indices of its windows, decided over the ten points (a row-blocked window
  sits at block (t, 0), a resident one at block (0, 0)); each input block read as rows 5000 t + p of its array, or
  as the whole array; the body's result at an entry of the block (the payload lemmas) carried from the blocks to
  the arrays, because the layer's entry at a row uses its row-indexed operands at that row only; and the cover:
  ten blocks of 5000 rows are the 50000 rows.
-/
import proofs.«106780_j5085241279116_2_alg».proof.Proof.Gen.KernelIdeal.Frame
import proofs.«106780_j5085241279116_2_alg».proof.Proof.Gen.KernelIdeal.Points
import proofs.«106780_j5085241279116_2_alg».proof.Proof.Gen.KernelIdeal.Launch
import proofs.«106780_j5085241279116_2_alg».proof.Proof.SageLaw
import proofs.«106780_j5085241279116_2_alg».proof.Proof.KernelBlocksPayload
import Idealize.ShloMosaic.Lib.Pipeline.Value

set_option maxRecDepth 16384

noncomputable section

namespace Cert.KernelIdeal.Blocks

open Cert.KernelIdeal Cert.KernelIdeal.Gen Cert.Sage
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a whole-buffer access, as the constant function. -/
theorem zero_offsets : (![0, 0] : Fin 2 → Nat) = fun _ => 0 := funext fun a => by fin_cases a <;> rfl

/-! ## The layer and the head use their row-indexed operands at one row only -/

/-- An entry of the layer of a block of rows is the entry of the layer of the whole arrays at the row the block's
    row sits at: the layer's entry at a row reads the summed-neighbour row, the node's own row and the reciprocal
    of that row, and the resident weights and bias. -/
theorem scaledLayer_of_rows {N N' : ℕ} (msg x : Mat N 128) (inv : Mat N 1) (msg' x' : Mat N' 128) (inv' : Mat N' 1)
    (wl wr : Mat 128 128) (brow : Mat 1 128) (z : EReal) (p : Fin N') (r : Fin N) (c : Fin 128)
    (hmsg : ∀ k, msg' (ix2 p k) = msg (ix2 r k)) (hx : ∀ k, x' (ix2 p k) = x (ix2 r k))
    (hinv : inv' (ix2 p (0 : Fin 1)) = inv (ix2 r (0 : Fin 1))) :
    scaledLayer msg' x' wl wr brow inv' z p c = scaledLayer msg x wl wr brow inv z r c := by
  unfold scaledLayer
  simp only [hmsg, hx, hinv]

/-- The head at a row reads the hidden array at that row only. -/
theorem headOf_of_rows {N N' : ℕ} (h : Fin N → Fin 128 → EReal) (h' : Fin N' → Fin 128 → EReal) (wo : Mat 128 1)
    (bo : EReal) (p : Fin N') (r : Fin N) (hh : ∀ c, h' p c = h r c) : headOf h' wo bo p = headOf h wo bo r := by
  unfold headOf
  simp only [hh]

/-! ## The first call -/

/-- The first call's block indices, decided over its ten points: the row-blocked windows (summed neighbours, node
    features, reciprocal column, output) sit at block (t, 0), the resident ones (weights, bias row) at block (0, 0). -/
theorem block_index0 : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Row p of the summed-neighbour block at point t is row 5000 t + p of the array. -/
theorem rows0_0 (c : Dev nD) (t : Fin cfg0.N) (p : Fin 5000) (k : Fin 128) (r : Fin 50000) (hr : r.val = t.val * 5000 + p.val) :
    (iblk0 V c 0 t : Vec Ideal S5000x128 .f32) (ix2 p k) = (V c main_v27 : S50000x128.Idx → EReal) (ix2 r k) := by
  obtain ⟨e0, e1, -⟩ := block_index0 t
  unfold iblk0
  rw [View.read_apply]
  show V c main_v27 _ = V c main_v27 _
  congr 1
  funext a
  apply Fin.ext
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- Row p of the node-feature block at point t is row 5000 t + p of the array. -/
theorem rows0_1 (c : Dev nD) (t : Fin cfg0.N) (p : Fin 5000) (k : Fin 128) (r : Fin 50000) (hr : r.val = t.val * 5000 + p.val) :
    (iblk0 V c 1 t : Vec Ideal S5000x128 .f32) (ix2 p k) = (V c main_arg0 : S50000x128.Idx → EReal) (ix2 r k) := by
  obtain ⟨-, -, e0, e1, -⟩ := block_index0 t
  unfold iblk0
  rw [View.read_apply]
  show V c main_arg0 _ = V c main_arg0 _
  congr 1
  funext a
  apply Fin.ext
  match a with
  | ⟨0, _⟩ => show win0_1.index t (0 : Fin 2) * 5000 + 1 * p.val = r.val; rw [e0, hr]; omega
  | ⟨1, _⟩ => show win0_1.index t (1 : Fin 2) * 128 + 1 * k.val = k.val; rw [e1]; omega

/-- Row p of the reciprocal-column block at point t is row 5000 t + p of the column. -/
theorem rows0_5 (c : Dev nD) (t : Fin cfg0.N) (p : Fin 5000) (r : Fin 50000) (hr : r.val = t.val * 5000 + p.val) :
    (iblk0 V c 5 t : Vec Ideal S5000x1 .f32) (ix2 p (0 : Fin 1)) = (V c main_v12 : S50000x1.Idx → EReal) (ix2 r (0 : Fin 1)) := by
  obtain ⟨-, -, -, -, -, -, -, -, -, -, e0, e1, -⟩ := block_index0 t
  unfold iblk0
  rw [View.read_apply]
  show V c main_v12 _ = V c main_v12 _
  congr 1
  funext a
  apply Fin.ext
  match a with
  | ⟨0, _⟩ => show win0_5.index t (0 : Fin 2) * 5000 + 1 * p.val = r.val; rw [e0, hr]; omega
  | ⟨1, _⟩ => show win0_5.index t (1 : Fin 2) * 1 + 1 * 0 = 0; rw [e1]

/-- The left weights' block is the whole array at every point. -/
theorem resident0_2 (c : Dev nD) (t : Fin cfg0.N) :
    (iblk0 V c 2 t : Vec Ideal S128x128 .bf16) = (V c main_v13 : S128x128.Idx → EReal) := by
  obtain ⟨-, -, -, -, e0, e1, -⟩ := block_index0 t
  funext y
  unfold iblk0
  rw [View.read_apply]
  show V c main_v13 _ = V c main_v13 _
  congr 1
  funext a
  apply Fin.ext
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

/-- The bias row's block is the whole row at every point. -/
theorem resident0_3 (c : Dev nD) (t : Fin cfg0.N) :
    (iblk0 V c 3 t : Vec Ideal S1x128 .f32) = (V c main_v28 : S1x128.Idx → EReal) := by
  obtain ⟨-, -, -, -, -, -, e0, e1, -⟩ := block_index0 t
  funext y
  unfold iblk0
  rw [View.read_apply]
  show V c main_v28 _ = V c main_v28 _
  congr 1
  funext a
  apply Fin.ext
  match a with
  | ⟨0, _⟩ => show win0_3.index t (0 : Fin 2) * 1 + 1 * (y 0).val = (y 0).val; rw [e0]; omega
  | ⟨1, _⟩ => show win0_3.index t (1 : Fin 2) * 128 + 1 * (y 1).val = (y 1).val; rw [e1]; omega

/-- The right weights' block is the whole array at every point. -/
theorem resident0_4 (c : Dev nD) (t : Fin cfg0.N) :
    (iblk0 V c 4 t : Vec Ideal S128x128 .bf16) = (V c main_v14 : S128x128.Idx → EReal) := by
  obtain ⟨-, -, -, -, -, -, -, -, e0, e1, -⟩ := block_index0 t
  funext y
  unfold iblk0
  rw [View.read_apply]
  show V c main_v14 _ = V c main_v14 _
  congr 1
  funext a
  apply Fin.ext
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

/-- What the first call's output array ends holding: the layer of the whole arrays, entry by entry. -/
abbrev layer0 (c : Dev nD) : S50000x128.Idx → EReal :=
  fun j => scaledLayer (V c main_v27) (V c main_arg0) (V c main_v13) (V c main_v14) (V c main_v28) (V c main_v12) zeroW (j 0) (j 1)

/-- Entry (p, q) of the output block at point t sits at row 5000 t + p, column q of the array. -/
theorem out_emb0 (t : Fin cfg0.N) (p : Fin 5000) (q : Fin 128) :
    ((((cfg0.win 6).blk t).view.emb (ix2 p q : S5000x128.Idx) : S50000x128.Idx) 0).val = t.val * 5000 + p.val
    ∧ ((((cfg0.win 6).blk t).view.emb (ix2 p q : S5000x128.Idx) : S50000x128.Idx) 1).val = q.val := by
  obtain ⟨-, -, -, -, -, -, -, -, -, -, -, -, e0, e1⟩ := block_index0 t
  constructor
  · show win0_6.index t (0 : Fin 2) * 5000 + 1 * p.val = _; rw [e0]; omega
  · show win0_6.index t (1 : Fin 2) * 128 + 1 * q.val = _; rw [e1]; omega

/-- What point t writes back is block t of the layer of the whole arrays. -/
theorem flushed0_eq (c : Dev nD) (t : Fin cfg0.N) :
    (dat0 (F := Ideal) V c).flushed 6 t = ((cfg0.win 6).blk t).view.read (Elt Ideal) (layer0 V c) := by
  show (cfg0.win 6).cut (grid0.coords t) ((dat0 V c).after 6 t) = _
  rw [after0_6]
  unfold out0_6
  rw [View.canon_unit_zero zero_offsets]
  simp only [View.ld_unit_zero (S := S5000x128) zero_offsets, View.ld_unit_zero (S := S5000x1) zero_offsets,
    View.ld_unit_zero (S := S128x128) zero_offsets, View.ld_unit_zero (S := S1x128) zero_offsets]
  funext y
  obtain ⟨p, q, rfl⟩ : ∃ (p : Fin 5000) (q : Fin 128), (y : S5000x128.Idx) = ix2 p q := ⟨y 0, y 1, eq_ix2 y⟩
  show k0_pay1 (F := Ideal) (iblk0 V c 0 t) (iblk0 V c 5 t) (iblk0 V c 1 t) (iblk0 V c 2 t) (iblk0 V c 4 t) (iblk0 V c 3 t) (ix2 p q)
    = layer0 V c (((cfg0.win 6).blk t).view.emb (ix2 p q : S5000x128.Idx))
  rw [k0_pay1_apply, resident0_2, resident0_3, resident0_4]
  obtain ⟨h0, h1⟩ := out_emb0 t p q
  have hq : (((cfg0.win 6).blk t).view.emb (ix2 p q : S5000x128.Idx) : S50000x128.Idx) 1 = q := Fin.ext h1
  show _ = scaledLayer _ _ _ _ _ _ zeroW _ ((((cfg0.win 6).blk t).view.emb (ix2 p q : S5000x128.Idx) : S50000x128.Idx) 1)
  rw [hq]
  exact scaledLayer_of_rows _ _ _ _ _ _ _ _ _ _ p _ q (fun k => rows0_0 V c t p k _ h0) (fun k => rows0_1 V c t p k _ h0)
    (rows0_5 V c t p _ h0)

/-- An index of the output array is in point t's block iff each coordinate is in the block's range on its axis. -/
theorem mem_block0 (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v29).slice (win0_6.rect t)).set ↔ _
  rw [View.set_slice_whole, Rect.mem_set_unit]
  exact Iff.rfl

/-- Row r of the output array is written by point r / 5000: the ten blocks of 5000 rows cover the 50000 rows. -/
theorem cover0 (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  have hN : grid0.N = 10 := N_0
  let t : Fin cfg0.N := ⟨(i 0).val / 5000, by show (i 0).val / 5000 < grid0.N; rw [hN]; omega⟩
  obtain ⟨-, -, -, -, -, -, -, -, -, -, -, -, e0, e1⟩ := block_index0 t
  have ht : t.val = (i 0).val / 5000 := rfl
  refine ⟨t, flush0_6 t, ?_⟩
  rw [mem_block0]
  intro a
  match a with
  | ⟨0, _⟩ => show win0_6.index t (0 : Fin 2) * 5000 ≤ (i 0).val ∧ (i 0).val < win0_6.index t (0 : Fin 2) * 5000 + 5000; rw [e0, ht]; omega
  | ⟨1, _⟩ => show win0_6.index t (1 : Fin 2) * 128 ≤ (i 1).val ∧ (i 1).val < win0_6.index t (1 : Fin 2) * 128 + 128; rw [e1]; omega

/-- The first call's output array after its ten blocks, from the arrays as the call finds them. -/
theorem final0 (c : Dev nD) :
    (dat0 (F := Ideal) V c).arrAt 6 cfg0.N
      = fun j : S50000x128.Idx => scaledLayer (V c main_v27) (V c main_arg0) (V c main_v13) (V c main_v14)
          (V c main_v28) (V c main_v12) zeroW (j 0) (j 1) :=
  (dat0 (F := Ideal) V c).arrAt_eq_of_cover 6 (layer0 V c) (fun t _ => flushed0_eq V c t) cover0

/-! ## The second call -/

/-- The second call's block indices, decided over its ten points: the row-blocked windows (summed neighbours, hidden
    rows, reciprocal column, output) sit at block (t, 0), the resident ones (weights, bias row, output column, output
    bias) at block (0, 0). -/
theorem block_index1 : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

/-- Row p of the summed-neighbour block at point t is row 5000 t + p of the array. -/
theorem rows1_0 (c : Dev nD) (t : Fin cfg1.N) (p : Fin 5000) (k : Fin 128) (r : Fin 50000) (hr : r.val = t.val * 5000 + p.val) :
    (iblk1 V c 0 t : Vec Ideal S5000x128 .f32) (ix2 p k) = (V c main_v39 : S50000x128.Idx → EReal) (ix2 r k) := by
  obtain ⟨e0, e1, -⟩ := block_index1 t
  unfold iblk1
  rw [View.read_apply]
  show V c main_v39 _ = V c main_v39 _
  congr 1
  funext a
  apply Fin.ext
  match a with
  | ⟨0, _⟩ => show win1_0.index t (0 : Fin 2) * 5000 + 1 * p.val = r.val; rw [e0, hr]; omega
  | ⟨1, _⟩ => show win1_0.index t (1 : Fin 2) * 128 + 1 * k.val = k.val; rw [e1]; omega

/-- Row p of the hidden-row block at point t is row 5000 t + p of the array. -/
theorem rows1_1 (c : Dev nD) (t : Fin cfg1.N) (p : Fin 5000) (k : Fin 128) (r : Fin 50000) (hr : r.val = t.val * 5000 + p.val) :
    (iblk1 V c 1 t : Vec Ideal S5000x128 .f32) (ix2 p k) = (V c main_v29 : S50000x128.Idx → EReal) (ix2 r k) := by
  obtain ⟨-, -, e0, e1, -⟩ := block_index1 t
  unfold iblk1
  rw [View.read_apply]
  show V c main_v29 _ = V c main_v29 _
  congr 1
  funext a
  apply Fin.ext
  match a with
  | ⟨0, _⟩ => show win1_1.index t (0 : Fin 2) * 5000 + 1 * p.val = r.val; rw [e0, hr]; omega
  | ⟨1, _⟩ => show win1_1.index t (1 : Fin 2) * 128 + 1 * k.val = k.val; rw [e1]; omega

/-- Row p of the reciprocal-column block at point t is row 5000 t + p of the column. -/
theorem rows1_5 (c : Dev nD) (t : Fin cfg1.N) (p : Fin 5000) (r : Fin 50000) (hr : r.val = t.val * 5000 + p.val) :
    (iblk1 V c 5 t : Vec Ideal S5000x1 .f32) (ix2 p (0 : Fin 1)) = (V c main_v12 : S50000x1.Idx → EReal) (ix2 r (0 : Fin 1)) := by
  obtain ⟨-, -, -, -, -, -, -, -, -, -, e0, e1, -⟩ := block_index1 t
  unfold iblk1
  rw [View.read_apply]
  show V c main_v12 _ = V c main_v12 _
  congr 1
  funext a
  apply Fin.ext
  match a with
  | ⟨0, _⟩ => show win1_5.index t (0 : Fin 2) * 5000 + 1 * p.val = r.val; rw [e0, hr]; omega
  | ⟨1, _⟩ => show win1_5.index t (1 : Fin 2) * 1 + 1 * 0 = 0; rw [e1]

/-- The left weights' block is the whole array at every point. -/
theorem resident1_2 (c : Dev nD) (t : Fin cfg1.N) :
    (iblk1 V c 2 t : Vec Ideal S128x128 .bf16) = (V c main_v15 : S128x128.Idx → EReal) := by
  obtain ⟨-, -, -, -, e0, e1, -⟩ := block_index1 t
  funext y
  unfold iblk1
  rw [View.read_apply]
  show V c main_v15 _ = V c main_v15 _
  congr 1
  funext a
  apply Fin.ext
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

/-- The bias row's block is the whole row at every point. -/
theorem resident1_3 (c : Dev nD) (t : Fin cfg1.N) :
    (iblk1 V c 3 t : Vec Ideal S1x128 .f32) = (V c main_v40 : S1x128.Idx → EReal) := by
  obtain ⟨-, -, -, -, -, -, e0, e1, -⟩ := block_index1 t
  funext y
  unfold iblk1
  rw [View.read_apply]
  show V c main_v40 _ = V c main_v40 _
  congr 1
  funext a
  apply Fin.ext
  match a with
  | ⟨0, _⟩ => show win1_3.index t (0 : Fin 2) * 1 + 1 * (y 0).val = (y 0).val; rw [e0]; omega
  | ⟨1, _⟩ => show win1_3.index t (1 : Fin 2) * 128 + 1 * (y 1).val = (y 1).val; rw [e1]; omega

/-- The right weights' block is the whole array at every point. -/
theorem resident1_4 (c : Dev nD) (t : Fin cfg1.N) :
    (iblk1 V c 4 t : Vec Ideal S128x128 .bf16) = (V c main_v16 : S128x128.Idx → EReal) := by
  obtain ⟨-, -, -, -, -, -, -, -, e0, e1, -⟩ := block_index1 t
  funext y
  unfold iblk1
  rw [View.read_apply]
  show V c main_v16 _ = V c main_v16 _
  congr 1
  funext a
  apply Fin.ext
  match a with
  | ⟨0, _⟩ => show win1_4.index t (0 : Fin 2) * 128 + 1 * (y 0).val = (y 0).val; rw [e0]; omega
  | ⟨1, _⟩ => show win1_4.index t (1 : Fin 2) * 128 + 1 * (y 1).val = (y 1).val; rw [e1]; omega

/-- The output column's block is the whole column at every point. -/
theorem resident1_6 (c : Dev nD) (t : Fin cfg1.N) :
    (iblk1 V c 6 t : Vec Ideal S128x1 .bf16) = (V c main_v17 : S128x1.Idx → EReal) := by
  obtain ⟨-, -, -, -, -, -, -, -, -, -, -, -, e0, e1, -⟩ := block_index1 t
  funext y
  unfold iblk1
  rw [View.read_apply]
  show V c main_v17 _ = V c main_v17 _
  congr 1
  funext a
  apply Fin.ext
  match a with
  | ⟨0, _⟩ => show win1_6.index t (0 : Fin 2) * 128 + 1 * (y 0).val = (y 0).val; rw [e0]; omega
  | ⟨1, _⟩ => show win1_6.index t (1 : Fin 2) * 1 + 1 * (y 1).val = (y 1).val; rw [e1]; omega

/-- The output bias's block is the whole one-entry array at every point. -/
theorem resident1_7 (c : Dev nD) (t : Fin cfg1.N) :
    (iblk1 V c 7 t : Vec Ideal S1x1 .f32) = (V c main_v41 : S1x1.Idx → EReal) := by
  obtain ⟨-, -, -, -, -, -, -, -, -, -, -, -, -, -, e0, e1, -⟩ := block_index1 t
  funext y
  unfold iblk1
  rw [View.read_apply]
  show V c main_v41 _ = V c main_v41 _
  congr 1
  funext a
  apply Fin.ext
  match a with
  | ⟨0, _⟩ => show win1_7.index t (0 : Fin 2) * 1 + 1 * (y 0).val = (y 0).val; rw [e0]; omega
  | ⟨1, _⟩ => show win1_7.index t (1 : Fin 2) * 1 + 1 * (y 1).val = (y 1).val; rw [e1]; omega

/-- What the second call's output array ends holding: the head of the layer of the whole arrays, row by row. -/
abbrev head1 (c : Dev nD) : S50000x1.Idx → EReal :=
  fun j => headOf (scaledLayer (V c main_v39) (V c main_v29) (V c main_v15) (V c main_v16) (V c main_v40) (V c main_v12) zeroW)
    (V c main_v17) (V c main_v41 (ix2 (0 : Fin 1) (0 : Fin 1))) (j 0)

/-- Entry (p, 0) of the output block at point t sits at row 5000 t + p of the array. -/
theorem out_emb1 (t : Fin cfg1.N) (p : Fin 5000) :
    ((((cfg1.win 8).blk t).view.emb (ix2 p (0 : Fin 1) : S5000x1.Idx) : S50000x1.Idx) 0).val = t.val * 5000 + p.val := by
  obtain ⟨-, -, -, -, -, -, -, -, -, -, -, -, -, -, -, -, e0, e1⟩ := block_index1 t
  show win1_8.index t (0 : Fin 2) * 5000 + 1 * p.val = _; rw [e0]; omega

/-- What point t writes back is block t of the head of the layer of the whole arrays. -/
theorem flushed1_eq (c : Dev nD) (t : Fin cfg1.N) :
    (dat1 (F := Ideal) V c).flushed 8 t = ((cfg1.win 8).blk t).view.read (Elt Ideal) (head1 V c) := by
  show (cfg1.win 8).cut (grid1.coords t) ((dat1 V c).after 8 t) = _
  rw [after1_8]
  unfold out1_8
  rw [View.canon_unit_zero zero_offsets]
  simp only [View.ld_unit_zero (S := S5000x128) zero_offsets, View.ld_unit_zero (S := S5000x1) zero_offsets,
    View.ld_unit_zero (S := S128x128) zero_offsets, View.ld_unit_zero (S := S1x128) zero_offsets,
    View.ld_unit_zero (S := S128x1) zero_offsets, View.ld_unit_zero (S := S1x1) zero_offsets]
  funext y
  obtain ⟨p, q, rfl⟩ : ∃ (p : Fin 5000) (q : Fin 1), (y : S5000x1.Idx) = ix2 p q := ⟨y 0, y 1, eq_ix2 y⟩
  obtain rfl : q = (0 : Fin 1) := Subsingleton.elim _ _
  show k1_pay1 (F := Ideal) (iblk1 V c 0 t) (iblk1 V c 5 t) (iblk1 V c 1 t) (iblk1 V c 2 t) (iblk1 V c 4 t) (iblk1 V c 3 t)
      (iblk1 V c 6 t) (iblk1 V c 7 t) (ix2 p (0 : Fin 1))
    = head1 V c (((cfg1.win 8).blk t).view.emb (ix2 p (0 : Fin 1) : S5000x1.Idx))
  rw [k1_pay1_apply, resident1_2, resident1_3, resident1_4, resident1_6, resident1_7]
  have h0 := out_emb1 t p
  exact headOf_of_rows _ _ _ _ p _ fun q => scaledLayer_of_rows _ _ _ _ _ _ _ _ _ _ p _ q
    (fun k => rows1_0 V c t p k _ h0) (fun k => rows1_1 V c t p k _ h0) (rows1_5 V c t p _ h0)

/-- An index of the output array is in point t's block iff each coordinate is in the block's range on its axis. -/
theorem mem_block1 (t : Fin cfg1.N) (i : S50000x1.Idx) :
    i ∈ ((cfg1.win 8).blk t).view.set ↔ ∀ a : Fin 2, win1_8.index t a * S5000x1.size a ≤ (i a).val ∧ (i a).val < win1_8.index t a * S5000x1.size a + S5000x1.size a := by
  show i ∈ ((View.whole main_v42).slice (win1_8.rect t)).set ↔ _
  rw [View.set_slice_whole, Rect.mem_set_unit]
  exact Iff.rfl

/-- Row r of the output array is written by point r / 5000: the ten blocks of 5000 rows cover the 50000 rows. -/
theorem cover1 (i : S50000x1.Idx) :
    ∃ t : Fin cfg1.N, (cfg1.win 8).flush t = true ∧ i ∈ ((cfg1.win 8).blk t).view.set := by
  have hi0 : (i 0).val < 50000 := (i 0).isLt
  have hi1 : (i 1).val < 1 := (i 1).isLt
  have hN : grid1.N = 10 := N_1
  let t : Fin cfg1.N := ⟨(i 0).val / 5000, by show (i 0).val / 5000 < grid1.N; rw [hN]; omega⟩
  obtain ⟨-, -, -, -, -, -, -, -, -, -, -, -, -, -, -, -, e0, e1⟩ := block_index1 t
  have ht : t.val = (i 0).val / 5000 := rfl
  refine ⟨t, flush1_8 t, ?_⟩
  rw [mem_block1]
  intro a
  match a with
  | ⟨0, _⟩ => show win1_8.index t (0 : Fin 2) * 5000 ≤ (i 0).val ∧ (i 0).val < win1_8.index t (0 : Fin 2) * 5000 + 5000; rw [e0, ht]; omega
  | ⟨1, _⟩ => show win1_8.index t (1 : Fin 2) * 1 ≤ (i 1).val ∧ (i 1).val < win1_8.index t (1 : Fin 2) * 1 + 1; rw [e1]; omega

/-- The second call's output array after its ten blocks, from the arrays as the call finds them. -/
theorem final1 (c : Dev nD) :
    (dat1 (F := Ideal) V c).arrAt 8 cfg1.N
      = fun j : S50000x1.Idx => headOf (scaledLayer (V c main_v39) (V c main_v29) (V c main_v15) (V c main_v16)
          (V c main_v40) (V c main_v12) zeroW) (V c main_v17) (V c main_v41 (ix2 (0 : Fin 1) (0 : Fin 1))) (j 0) :=
  (dat1 (F := Ideal) V c).arrAt_eq_of_cover 8 (head1 V c) (fun t _ => flushed1_eq V c t) cover1

end Cert.KernelIdeal.Blocks

end
-- ==== Proof.KernelValue.lean ====
/-
  The idealized kernel program's result buffer as a function of the argument arrays: the network's output.

  The first call's output array is the first layer's hidden array: its stored column holds 1 / max(degree, 1) and
  its bias row holds the bias vector, so the multiplied spelling of the layer is the divided one (the law of
  `Cert.Sage`). The host then sums the neighbour rows of THAT array, the second call computes the second layer
  and the head from it in the same way, and the last reshape drops the unit axis.
-/
import proofs.«106780_j5085241279116_2_alg».proof.Proof.KernelHost
import proofs.«106780_j5085241279116_2_alg».proof.Proof.KernelBlocks
import proofs.«106780_j5085241279116_2_alg».proof.Proof.SageLaw
import proofs.«106780_j5085241279116_2_alg».proof.Proof.LibColumn
import Idealize.ShloMosaic.Lib.Pipeline.Value

set_option maxRecDepth 16384

noncomputable section

namespace Cert.KernelIdeal.Fold

open Cert.KernelIdeal Cert.KernelIdeal.Gen Cert.Sage
open Idealize.ShloMosaic Idealize.ShloMosaic.TcCoe Idealize.ShloMosaic.ValueIdx Idealize.SL.Sem

/-- A vector of `a` entries laid as a 1 × a row reads, at (u, q), the vector at q. -/
theorem shapeCast_vec_row {α : Type} {a : ℕ} (x : (⟨1, ![a]⟩ : Shape).Idx → α)
    (h : (⟨1, ![a]⟩ : Shape).ShapeCasts ⟨2, ![1, a]⟩) (u : Fin 1) (q : Fin a) :
    shapeCast ⟨2, ![1, a]⟩ x h (ix2 u q) = x (ix1 q) :=
  shapeCast_apply x h _ _ (by
    have hu : u.val = 0 := by omega
    rw [Shape.rowMajor_val_two, Shape.rowMajor_val_one]
    show q.val = u.val * a + q.val
    rw [hu, Nat.zero_mul, Nat.zero_add])

/-- A scalar spread over any shape reads the scalar at every index. -/
theorem scalar_spread {α : Type} {t : Shape} (h : (⟨0, ![]⟩ : Shape).BroadcastsInDim t ![])
    (v : (⟨0, ![]⟩ : Shape).Idx → α) (j : t.Idx) : broadcastInDim t ![] h v j = v ix0 :=
  broadcastInDim_apply _ h v j ix0 (fun a => a.elim0)

/-- The stored column at row p is 1 / max(degree of p, 1). -/
theorem recipCol_apply (e : IVec S2x600000 32) (p : Fin 50000) :
    recipCol e (ix2 p (0 : Fin 1)) = Ideal.div oneW (max (Chain.deg e (ix1 p)) oneW) := by
  have hb : broadcastInDim S50000 ![] Gen.bcast_S_S50000 (constant (F := Ideal) S_ .f32 0x3F800000#32) (ix1 p) = oneW :=
    scalar_spread Gen.bcast_S_S50000 (constant (F := Ideal) S_ .f32 0x3F800000#32) (ix1 p)
  unfold recipCol
  rw [Cert.Lib.Column.shapeCast_a_a1_apply]
  simp only [Host.divf, maximumf, Ideal.hostDivf_def, Ideal.maximumf_def, hb]

variable (m : (ℓ : Loc nD τ sig) → Buf (Elt Ideal) ℓ) (ρ : Dev nD → PrngReg) (c : Dev nD)

/-- The first call's output array is the first layer's hidden array. -/
theorem hidden_eq : (dat0 (V1 m ρ) c).arrAt 6 cfg0.N
    = hidden1 (Chain.agg (m ((c : Thread nD τ).loc main_arg1))) (fun p => Chain.deg (m ((c : Thread nD τ).loc main_arg1)) (ix1 p)) (m ((c : Thread nD τ).loc main_arg0)) (m ((c : Thread nD τ).loc main_arg2)) (m ((c : Thread nD τ).loc main_arg4)) (fun q => (m ((c : Thread nD τ).loc main_arg3)) (ix1 q)) := by
  rw [Blocks.final0 (V1 m ρ) c]
  funext j
  show scaledLayer (W1 m ρ c (Proc.devRef .tc main_v27)) (W1 m ρ c (Proc.devRef .tc main_arg0)) (W1 m ρ c (Proc.devRef .tc main_v13))
    (W1 m ρ c (Proc.devRef .tc main_v14)) (W1 m ρ c (Proc.devRef .tc main_v28)) (W1 m ρ c (Proc.devRef .tc main_v12)) zeroW (j 0) (j 1) = _
  rw [W1_v27, W1_arg0, W1_v13, W1_v14, W1_v28, W1_v12]
  exact scaled_eq_mean _ _ _ _ _ _ _ _ _ (j 0) (j 1) (recipCol_apply _ _) (shapeCast_vec_row _ _ _ _)

/-- THE KERNEL PROGRAM'S RESULT: entry p of the result buffer is the network's output at node p. -/
theorem result_eq : W5 m ρ c (Proc.devRef .tc main_v43)
    = fun i => output (Chain.agg (m ((c : Thread nD τ).loc main_arg1))) (fun p => Chain.deg (m ((c : Thread nD τ).loc main_arg1)) (ix1 p)) (m ((c : Thread nD τ).loc main_arg0)) (m ((c : Thread nD τ).loc main_arg2)) (m ((c : Thread nD τ).loc main_arg4)) (fun q => (m ((c : Thread nD τ).loc main_arg3)) (ix1 q))
        (m ((c : Thread nD τ).loc main_arg5)) (m ((c : Thread nD τ).loc main_arg7)) (fun q => (m ((c : Thread nD τ).loc main_arg6)) (ix1 q)) (m ((c : Thread nD τ).loc main_arg8)) ((m ((c : Thread nD τ).loc main_arg9)) (ix1 (0 : Fin 1))) (i 0) := by
  rw [W5_v43, Blocks.final1 (V3 m ρ) c]
  funext i
  obtain ⟨p, rfl⟩ : ∃ p : Fin 50000, i = ix1 p := ⟨i 0, eq_ix1 i⟩
  rw [Cert.Lib.Column.shapeCast_a1_a_apply]
  show headOf (scaledLayer (W3 m ρ c (Proc.devRef .tc main_v39)) (W3 m ρ c (Proc.devRef .tc main_v29)) (W3 m ρ c (Proc.devRef .tc main_v15))
    (W3 m ρ c (Proc.devRef .tc main_v16)) (W3 m ρ c (Proc.devRef .tc main_v40)) (W3 m ρ c (Proc.devRef .tc main_v12)) zeroW)
    (W3 m ρ c (Proc.devRef .tc main_v17)) (W3 m ρ c (Proc.devRef .tc main_v41) (ix2 (0 : Fin 1) (0 : Fin 1))) p = _
  rw [W3_v39, W3_v29, W3_v15, W3_v16, W3_v40, W3_v12, W3_v17, W3_v41, hidden_eq]
  unfold output headOf
  rw [Cert.Lib.Column.shapeCast_a_a1_apply]
  refine congrArg₂ (fun a b : EReal => a + b) (Finset.sum_congr rfl fun q _ => ?_) rfl
  refine congrArg₂ (fun a b : EReal => a * b) ?_ rfl
  exact scaled_eq_mean _ _ _ _ _ _ _ _ _ p q (recipCol_apply _ _) (shapeCast_vec_row _ _ _ _)

end Cert.KernelIdeal.Fold

end
-- ==== Proof.RefChain.lean ====
/-
  The part of the network both programs compute by the same host operations, named once so that it is never
  opened: from the edge list (a 2 × 600000 array of node numbers, row 0 the sources, row 1 the destinations), the
  destination column, the source column (a negative source number counted from the end, as array indexing
  does), the sum over each node's incoming edges of the source rows of an array (`agg`), and each node's number
  of incoming edges (`deg`).
-/
import proofs.«106780_j5085241279116_2_alg».proof.Proof.Gen.ReferenceIdeal
import Idealize.ShloMosaic.PureOps.Ideal

noncomputable section

namespace Cert.ReferenceIdeal.Chain

open Cert.ReferenceIdeal Cert.ReferenceIdeal.Facts₀ Cert.ReferenceIdeal.Facts Idealize.ShloMosaic

/-- The destinations, as a 600000 × 1 column. -/
def dstCol (e : IVec S2x600000 32) : IVec S600000x1 32 :=
  broadcastInDim S600000x1 ![0] bcast_S600000_S600000x1_0 (shapeCast _ (extractStridedSlice S1x600000 ![1, 0] e slices_S2x600000_S1x600000_1_0) shapeCasts_S1x600000_S600000)

/-- The sources, as a vector. -/
def srcRow (e : IVec S2x600000 32) : IVec S600000 32 :=
  shapeCast _ (extractStridedSlice S1x600000 ![0, 0] e slices_S2x600000_S1x600000_0_0) shapeCasts_S1x600000_S600000

/-- The sources as a column, a negative number moved up by the node count. -/
def srcCol (e : IVec S2x600000 32) : IVec S600000x1 32 :=
  broadcastInDim S600000x1 ![0] bcast_S600000_S600000x1_0 (select (cmpi .slt (srcRow e) (broadcastInDim S600000 ![] bcast_S_S600000 (constantI S_ 32 0#32))) (addi (srcRow e) (broadcastInDim S600000 ![] bcast_S_S600000 (constantI S_ 32 50000#32))) (srcRow e))

/-- Each node's sum of the rows of `x` at its incoming edges' sources. -/
def agg (e : IVec S2x600000 32) (x : FVec Ideal S50000x128 .f32) : FVec Ideal S50000x128 .f32 :=
  Host.scatterAdd scatter_S50000x128_S600000x1_S600000x128_1_0_0_1 (broadcastInDim S50000x128 ![] bcast_S_S50000x128 (constant S_ .f32 0x00000000#32)) (dstCol e) (Host.gather gather_S50000x128_S600000x1_S600000x128_1_0_n_n_0_1_1128 x (srcCol e))

/-- Each node's number of incoming edges. -/
def deg (e : IVec S2x600000 32) : FVec Ideal S50000 .f32 :=
  Host.scatterAdd scatter_S50000_S600000x1_S600000_n_0_0_1 (broadcastInDim S50000 ![] bcast_S_S50000 (constant S_ .f32 0x00000000#32)) (dstCol e) (broadcastInDim S600000 ![] bcast_S_S600000 (constant S_ .f32 0x3F800000#32))

end Cert.ReferenceIdeal.Chain

end
-- ==== Proof.RefValue.lean ====
/-
  The reference program's result, index by index.

  Its run ends with the result buffer at the composed term of its host operations; read one operation at a time,
  entry p of that term is the network's output at node p (`Cert.Sage.output`): two layers, each dividing the
  summed neighbour features by max(degree, 1), multiplying by the left weight, adding the bias, adding the node's
  own features times the right weight, and flooring at zero; then the hidden row against the output column plus
  the output bias.  The neighbour sum and the degree are the shared gather / scatter-add chain of
  `Cert.ReferenceIdeal.Chain`, which is not opened.
-/
import proofs.«106780_j5085241279116_2_alg».proof.Proof.Gen.ReferenceIdeal.Read
import proofs.«106780_j5085241279116_2_alg».proof.Proof.RefChain
import proofs.«106780_j5085241279116_2_alg».proof.Proof.SageLaw

noncomputable section

namespace Cert.ReferenceIdeal.RefValue

open Cert.ReferenceIdeal Cert.ReferenceIdeal.Read Cert.Sage Idealize.ShloMosaic Idealize.ShloMosaic.ValueIdx

/-- The first neighbour sum is the shared chain applied to the node features. -/
theorem v13_eq (x0 : FVec Ideal S50000x128 .f32) (x1 : IVec S2x600000 32) :
    val_main_v13 (F := Ideal) x0 x1 = Chain.agg x1 x0 := by
  unfold val_main_v13 val_main_v11 val_main_v12 val_main_v10 val_main_v9 val_main_v8 val_main_v5 val_main_v7
    val_main_v4 val_main_v6 val_main_c val_main_c_0 val_main_cst val_main_v3 val_main_v2 val_main_v1 val_main_v0
    Chain.agg Chain.dstCol Chain.srcCol Chain.srcRow
  rfl

/-- The first degree count is the shared chain's. -/
theorem v17_eq (x1 : IVec S2x600000 32) : val_main_v17 (F := Ideal) x1 = Chain.deg x1 := by
  unfold val_main_v17 val_main_v15 val_main_v16 val_main_v14 val_main_cst_1 val_main_cst_2 val_main_v3 val_main_v2
    Chain.deg Chain.dstCol
  rfl

/-- The second neighbour sum is the shared chain applied to the first hidden array. -/
theorem v39_eq (x0 : FVec Ideal S50000x128 .f32) (x1 : IVec S2x600000 32) (x2 : FVec Ideal S128x128 .f32)
    (x3 : FVec Ideal S128 .f32) (x4 : FVec Ideal S128x128 .f32) :
    val_main_v39 (F := Ideal) x0 x1 x2 x3 x4 = Chain.agg x1 (val_main_v29 (F := Ideal) x0 x1 x2 x3 x4) := by
  unfold val_main_v39 val_main_v37 val_main_v38 val_main_v36 val_main_v35 val_main_v34 val_main_v31 val_main_v33
    val_main_v30 val_main_v32 val_main_c_4 val_main_c_5 val_main_cst_6 val_main_v3 val_main_v2 val_main_v1 val_main_v0
    Chain.agg Chain.dstCol Chain.srcCol Chain.srcRow
  rfl

/-- The second degree count is the shared chain's. -/
theorem v43_eq (x1 : IVec S2x600000 32) : val_main_v43 (F := Ideal) x1 = Chain.deg x1 := by
  unfold val_main_v43 val_main_v41 val_main_v42 val_main_v40 val_main_cst_7 val_main_cst_8 val_main_v3 val_main_v2
    Chain.deg Chain.dstCol
  rfl

/-! Index bookkeeping: the generated index functions at `ix2 p c`, as coordinate constructors. -/

theorem lidx23 (p : Fin 50000) (c k : Fin 128) : lidx_main_v23 (ix2 p c) k = ix2 p k :=
  funext fun a => Fin.ext (by match a with | ⟨0, _⟩ => rfl | ⟨1, _⟩ => rfl)
theorem ridx23 (p : Fin 50000) (c k : Fin 128) : ridx_main_v23 (ix2 p c) k = ix2 k c :=
  funext fun a => Fin.ext (by match a with | ⟨0, _⟩ => rfl | ⟨1, _⟩ => rfl)
theorem lidx27 (p : Fin 50000) (c k : Fin 128) : lidx_main_v27 (ix2 p c) k = ix2 p k :=
  funext fun a => Fin.ext (by match a with | ⟨0, _⟩ => rfl | ⟨1, _⟩ => rfl)
theorem ridx27 (p : Fin 50000) (c k : Fin 128) : ridx_main_v27 (ix2 p c) k = ix2 k c :=
  funext fun a => Fin.ext (by match a with | ⟨0, _⟩ => rfl | ⟨1, _⟩ => rfl)
theorem idx20_21 (p : Fin 50000) (k : Fin 128) : idx_main_v20 (idx_main_v21 (ix2 p k)) = ix1 p :=
  funext fun a => Fin.ext (by match a with | ⟨0, _⟩ => rfl)
theorem idx24_25 (p : Fin 50000) (c : Fin 128) : idx_main_v24 (idx_main_v25 (ix2 p c)) = ix1 c :=
  funext fun a => Fin.ext (by match a with | ⟨0, _⟩ => rfl)

/-- The first layer, as a whole array. -/
theorem layer1 (x0 : FVec Ideal S50000x128 .f32) (x1 : IVec S2x600000 32) (x2 : FVec Ideal S128x128 .f32)
    (x3 : FVec Ideal S128 .f32) (x4 : FVec Ideal S128x128 .f32) :
    val_main_v29 (F := Ideal) x0 x1 x2 x3 x4
      = hidden1 (Chain.agg x1) (fun p => Chain.deg x1 (ix1 p)) x0 x2 x4 (fun c => x3 (ix1 c)) := by
  funext j
  obtain ⟨p, c, rfl⟩ : ∃ (p : Fin 50000) (c : Fin 128), j = ix2 p c := ⟨j 0, j 1, eq_ix2 j⟩
  have hA : ∑ k : Fin 128, val_main_v22 (F := Ideal) x0 x1 (lidx_main_v23 (ix2 p c) k) * x2 (ridx_main_v23 (ix2 p c) k)
      = ∑ k : Fin 128, Ideal.div (Chain.agg x1 x0 (ix2 p k)) (max (Chain.deg x1 (ix1 p)) oneW) * x2 (ix2 k c) :=
    Finset.sum_congr rfl fun k _ => by
      rw [lidx23, ridx23, val_main_v22_apply, val_main_v21_apply, val_main_v20_apply, val_main_v19_apply,
        val_main_v18_apply, val_main_cst_3_apply, v13_eq, v17_eq, idx20_21]
      rfl
  have hB : ∑ k : Fin 128, x0 (lidx_main_v27 (ix2 p c) k) * x4 (ridx_main_v27 (ix2 p c) k)
      = ∑ k : Fin 128, x0 (ix2 p k) * x4 (ix2 k c) :=
    Finset.sum_congr rfl fun k _ => by rw [lidx27, ridx27]
  rw [val_main_v29_apply, val_main_v28_apply, val_main_v26_apply, val_main_v23_apply, val_main_v27_apply,
    val_main_v25_apply, val_main_v24_apply, val_main_call0_v0_apply, val_main_call0_cst_apply, hA, hB, idx24_25]
  rfl

theorem lidx49 (p : Fin 50000) (c k : Fin 128) : lidx_main_v49 (ix2 p c) k = ix2 p k :=
  funext fun a => Fin.ext (by match a with | ⟨0, _⟩ => rfl | ⟨1, _⟩ => rfl)
theorem ridx49 (p : Fin 50000) (c k : Fin 128) : ridx_main_v49 (ix2 p c) k = ix2 k c :=
  funext fun a => Fin.ext (by match a with | ⟨0, _⟩ => rfl | ⟨1, _⟩ => rfl)
theorem lidx53 (p : Fin 50000) (c k : Fin 128) : lidx_main_v53 (ix2 p c) k = ix2 p k :=
  funext fun a => Fin.ext (by match a with | ⟨0, _⟩ => rfl | ⟨1, _⟩ => rfl)
theorem ridx53 (p : Fin 50000) (c k : Fin 128) : ridx_main_v53 (ix2 p c) k = ix2 k c :=
  funext fun a => Fin.ext (by match a with | ⟨0, _⟩ => rfl | ⟨1, _⟩ => rfl)
theorem idx46_47 (p : Fin 50000) (k : Fin 128) : idx_main_v46 (idx_main_v47 (ix2 p k)) = ix1 p :=
  funext fun a => Fin.ext (by match a with | ⟨0, _⟩ => rfl)
theorem idx50_51 (p : Fin 50000) (c : Fin 128) : idx_main_v50 (idx_main_v51 (ix2 p c)) = ix1 c :=
  funext fun a => Fin.ext (by match a with | ⟨0, _⟩ => rfl)
theorem idx60 (p : Fin 50000) : idx_main_v60 (ix1 p) = ix2 p (0 : Fin 1) :=
  funext fun a => Fin.ext (by match a with | ⟨0, _⟩ => exact Nat.div_one _ | ⟨1, _⟩ => rfl)
theorem lidx56 (p : Fin 50000) (k : Fin 128) : lidx_main_v56 (ix2 p (0 : Fin 1)) k = ix2 p k :=
  funext fun a => Fin.ext (by match a with | ⟨0, _⟩ => rfl | ⟨1, _⟩ => rfl)
theorem ridx56 (p : Fin 50000) (k : Fin 128) : ridx_main_v56 (ix2 p (0 : Fin 1)) k = ix2 k (0 : Fin 1) :=
  funext fun a => Fin.ext (by match a with | ⟨0, _⟩ => rfl | ⟨1, _⟩ => rfl)
theorem idx57_58 (p : Fin 50000) : idx_main_v57 (idx_main_v58 (ix2 p (0 : Fin 1))) = ix1 (0 : Fin 1) :=
  funext fun a => Fin.ext (by match a with | ⟨0, _⟩ => rfl)

/-- The second layer at node p, channel c: the same layer over the first layer's hidden array. -/
theorem layer2 (x0 : FVec Ideal S50000x128 .f32) (x1 : IVec S2x600000 32) (x2 : FVec Ideal S128x128 .f32)
    (x3 : FVec Ideal S128 .f32) (x4 x5 : FVec Ideal S128x128 .f32) (x6 : FVec Ideal S128 .f32)
    (x7 : FVec Ideal S128x128 .f32) (p : Fin 50000) (c : Fin 128) :
    val_main_v55 (F := Ideal) x0 x1 x2 x3 x4 x5 x6 x7 (ix2 p c)
      = meanLayer
          (Chain.agg x1 (hidden1 (Chain.agg x1) (fun p => Chain.deg x1 (ix1 p)) x0 x2 x4 (fun c => x3 (ix1 c))))
          (hidden1 (Chain.agg x1) (fun p => Chain.deg x1 (ix1 p)) x0 x2 x4 (fun c => x3 (ix1 c)))
          x5 x7 (fun c => x6 (ix1 c)) (fun p => Chain.deg x1 (ix1 p)) zeroW p c := by
  have hA : ∑ k : Fin 128, val_main_v48 (F := Ideal) x0 x1 x2 x3 x4 (lidx_main_v49 (ix2 p c) k) * x5 (ridx_main_v49 (ix2 p c) k)
      = ∑ k : Fin 128, Ideal.div
          (Chain.agg x1 (hidden1 (Chain.agg x1) (fun p => Chain.deg x1 (ix1 p)) x0 x2 x4 (fun c => x3 (ix1 c))) (ix2 p k))
          (max (Chain.deg x1 (ix1 p)) oneW) * x5 (ix2 k c) :=
    Finset.sum_congr rfl fun k _ => by
      rw [lidx49, ridx49, val_main_v48_apply, val_main_v47_apply, val_main_v46_apply, val_main_v45_apply,
        val_main_v44_apply, val_main_cst_9_apply, v39_eq, layer1, v43_eq, idx46_47]
      rfl
  have hB : ∑ k : Fin 128, val_main_v29 (F := Ideal) x0 x1 x2 x3 x4 (lidx_main_v53 (ix2 p c) k) * x7 (ridx_main_v53 (ix2 p c) k)
      = ∑ k : Fin 128, hidden1 (Chain.agg x1) (fun p => Chain.deg x1 (ix1 p)) x0 x2 x4 (fun c => x3 (ix1 c)) (ix2 p k)
          * x7 (ix2 k c) :=
    Finset.sum_congr rfl fun k _ => by rw [lidx53, ridx53, layer1]
  rw [val_main_v55_apply, val_main_v54_apply, val_main_v52_apply, val_main_v49_apply, val_main_v53_apply,
    val_main_v51_apply, val_main_v50_apply, val_main_call1_v0_apply, val_main_call1_cst_apply, hA, hB, idx50_51]
  rfl

/-- The reference's last stage is the network's output, node by node. -/
theorem result_eq (x0 : FVec Ideal S50000x128 .f32) (x1 : IVec S2x600000 32) (x2 : FVec Ideal S128x128 .f32)
    (x3 : FVec Ideal S128 .f32) (x4 x5 : FVec Ideal S128x128 .f32) (x6 : FVec Ideal S128 .f32)
    (x7 : FVec Ideal S128x128 .f32) (x8 : FVec Ideal S128x1 .f32) (x9 : FVec Ideal S1 .f32) :
    val_main_v60 (F := Ideal) x0 x1 x2 x3 x4 x5 x6 x7 x8 x9
      = fun i => output (Chain.agg x1) (fun p => Chain.deg x1 (ix1 p)) x0 x2 x4 (fun c => x3 (ix1 c))
          x5 x7 (fun c => x6 (ix1 c)) x8 (x9 (ix1 (0 : Fin 1))) (i 0) := by
  funext i
  obtain ⟨p, rfl⟩ : ∃ p : Fin 50000, i = ix1 p := ⟨i 0, eq_ix1 i⟩
  have hS : ∑ k : Fin 128, val_main_v55 (F := Ideal) x0 x1 x2 x3 x4 x5 x6 x7 (lidx_main_v56 (ix2 p (0 : Fin 1)) k)
        * x8 (ridx_main_v56 (ix2 p (0 : Fin 1)) k)
      = ∑ k : Fin 128, meanLayer
          (Chain.agg x1 (hidden1 (Chain.agg x1) (fun p => Chain.deg x1 (ix1 p)) x0 x2 x4 (fun c => x3 (ix1 c))))
          (hidden1 (Chain.agg x1) (fun p => Chain.deg x1 (ix1 p)) x0 x2 x4 (fun c => x3 (ix1 c)))
          x5 x7 (fun c => x6 (ix1 c)) (fun p => Chain.deg x1 (ix1 p)) zeroW p k * x8 (ix2 k (0 : Fin 1)) :=
    Finset.sum_congr rfl fun k _ => by rw [lidx56, ridx56, layer2]
  rw [val_main_v60_apply, idx60, val_main_v59_apply, val_main_v56_apply, val_main_v58_apply, val_main_v57_apply,
    idx57_58, hS]
  rfl

end Cert.ReferenceIdeal.RefValue

end
-- ==== Proof.lean ====
/-
  The certificate of a two-layer graph network (mean aggregation over incoming edges, two weight matrices and a
  bias per layer, a rectifier, a linear output head) computed by two pallas_calls among host operations, against
  its plain reference.

  Both programs gather the source rows of the edge list and scatter-add them at the destinations, and count each
  node's incoming edges, by the same host operations; that chain is carried as one function and never opened.
  They differ in how the mean is taken and in the order of three summands: the reference divides the summed
  rows by max(degree, 1) and adds the bias before the node's own product; the kernel multiplies by a column of
  reciprocals 1 / max(degree, 1) computed once on the host, and adds the bias row last. Since max(degree, 1) is
  never zero, the product with the reciprocal is the quotient on every extended real, and addition is
  commutative and associative, so the two are one function of the arguments (`Cert.Sage.scaled_eq_mean`); no
  finiteness of the inputs is used. A change of float format is the identity on extended reals, a block-wise
  matrix product into a zero accumulator is the plain sum of products, and the ten row blocks of each call
  tile its output array.

  The frames of the two kernel programs are the generated ones; the reference's frame is its generated run with
  the result dropped. The idealization rewrote nothing, so there is nothing to preserve.
-/
import proofs.«106780_j5085241279116_2_alg».proof.Defs
import proofs.«106780_j5085241279116_2_alg».proof.Proof.Gen.Kernel
import proofs.«106780_j5085241279116_2_alg».proof.Proof.Gen.Kernel.Skeleton
import proofs.«106780_j5085241279116_2_alg».proof.Proof.Gen.Kernel.Launch
import proofs.«106780_j5085241279116_2_alg».proof.Proof.Gen.Kernel.Points
import proofs.«106780_j5085241279116_2_alg».proof.Proof.Gen.Kernel.Frame
import proofs.«106780_j5085241279116_2_alg».proof.Proof.Gen.KernelIdeal
import proofs.«106780_j5085241279116_2_alg».proof.Proof.Gen.KernelIdeal.Skeleton
import proofs.«106780_j5085241279116_2_alg».proof.Proof.Gen.KernelIdeal.Launch
import proofs.«106780_j5085241279116_2_alg».proof.Proof.Gen.KernelIdeal.Points
import proofs.«106780_j5085241279116_2_alg».proof.Proof.Gen.KernelIdeal.Frame
import proofs.«106780_j5085241279116_2_alg».proof.Proof.Gen.ReferenceIdeal
import proofs.«106780_j5085241279116_2_alg».proof.Proof.Gen.Pre_finite_inputs
import proofs.«106780_j5085241279116_2_alg».proof.Proof.Gen.ReferenceIdeal.Run
import proofs.«106780_j5085241279116_2_alg».proof.Proof.Gen.ReferenceIdeal.Read
import proofs.«106780_j5085241279116_2_alg».proof.Proof.KernelRun
import proofs.«106780_j5085241279116_2_alg».proof.Proof.KernelValue
import proofs.«106780_j5085241279116_2_alg».proof.Proof.RefValue
import Idealize.ShloMosaic.Adequacy
import Idealize.ShloMosaic.Init

noncomputable section

namespace Cert.Proof

open Idealize.ShloMosaic Idealize.ShloMosaic.TcCoe Idealize.SL.Sem

/-- The shared neighbour sum is one function, whichever program's records spell it. -/
theorem agg_eq (e : IVec Cert.KernelIdeal.S2x600000 32) : Cert.KernelIdeal.Chain.agg e = Cert.ReferenceIdeal.Chain.agg e := rfl

/-- The shared degree count is one function, whichever program's records spell it. -/
theorem deg_eq (e : IVec Cert.KernelIdeal.S2x600000 32) : Cert.KernelIdeal.Chain.deg e = Cert.ReferenceIdeal.Chain.deg e := rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end with the result buffer at the network's output of the argument arrays, node by node. -/
theorem algebraic : Cert.algebraic_KernelIdeal_ReferenceIdeal := by
  intro m ρ m' ρ' _ hagree
  refine ⟨fun c => Cert.KernelIdeal.Gen.W5 m ρ c (Proc.devRef .tc Cert.KernelIdeal.main_v43), Cert.KernelIdeal.Named.run_named m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9⟩ := hagree c
  rw [Cert.ReferenceIdeal.Read.val_main_v60_eq, Cert.ReferenceIdeal.RefValue.result_eq, e0, e1, e2, e3, e4, e5, e6, e7, e8, e9,
    ← agg_eq, ← deg_eq]
  exact (Cert.KernelIdeal.Fold.result_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
